-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x5 : Shape := ⟨3, ![4096, 64, 5]⟩
abbrev S_ : Shape := ⟨0, ![]⟩

class Facts : Prop where
  bcast_S_S4096x64x5 : S_.BroadcastsInDim S4096x64x5 (![] : Fin 0 → Fin S4096x64x5.rank)
  reducesTo_S4096x64x5_S_d0_1_2 : S4096x64x5.ReducesTo [0, 1, 2] S_
  h_S_ : 0 < S_.numel

variable [Facts]

def fn {F : FTy → Type} [FloatOps F] (main_arg0 : FVec F S4096x64x5 .f32) : IVec S_ 1 :=
  let main_v0 : FVec F S4096x64x5 .f32 := Host.absf main_arg0
  let main_cst : FVec F S_ .f32 := constant S_ .f32 0x7F800000#32
  let main_v1 : FVec F S4096x64x5 .f32 := broadcastInDim S4096x64x5 ![] bcast_S_S4096x64x5 main_cst
  let main_v2 : IVec S4096x64x5 1 := cmpf .olt main_v0 main_v1
  let main_c : IVec S_ 1 := constantI S_ 1 1#1
  let main_v3 : IVec S_ 1 := (fun x v => Host.reduce IntOp.andi x v reducesTo_S4096x64x5_S_d0_1_2 h_S_) main_v2 main_c
  main_v3
-- ==== Kernel.lean ====
abbrev S4096x64x5 : Shape := ⟨3, ![4096, 64, 5]⟩
abbrev S4096x320 : Shape := ⟨2, ![4096, 320]⟩
abbrev S4096x64 : Shape := ⟨2, ![4096, 64]⟩
abbrev S4096x4096 : Shape := ⟨2, ![4096, 4096]⟩
abbrev S256x320 : Shape := ⟨2, ![256, 320]⟩
abbrev S256x64 : Shape := ⟨2, ![256, 64]⟩
abbrev S256x4096 : Shape := ⟨2, ![256, 4096]⟩
abbrev S320x64 : Shape := ⟨2, ![320, 64]⟩
abbrev S256x128 : Shape := ⟨2, ![256, 128]⟩
abbrev S256x1 : Shape := ⟨2, ![256, 1]⟩
abbrev S4096x64x64 : Shape := ⟨3, ![4096, 64, 64]⟩

abbrev nBuf : Space → Nat
  | .hbm => 5
  | .vmem => 6
  | .smem => 0
  | _ => 0

abbrev bufTy : (tb : Table) → Fin (tcTables nBuf tb) → BufTy
  | .hbm, ⟨0, _⟩ => ⟨S4096x64x5, .f32⟩
  | .hbm, ⟨1, _⟩ => ⟨S4096x320, .f32⟩
  | .hbm, ⟨2, _⟩ => ⟨S4096x64, .f32⟩
  | .hbm, ⟨3, _⟩ => ⟨S4096x4096, .f32⟩
  | .hbm, ⟨4, _⟩ => ⟨S4096x64x64, .f32⟩
  | .local _ .vmem, ⟨0, _⟩ => ⟨S256x320, .f32⟩
  | .local _ .vmem, ⟨1, _⟩ => ⟨S256x320, .f32⟩
  | .local _ .vmem, ⟨2, _⟩ => ⟨S256x64, .f32⟩
  | .local _ .vmem, ⟨3, _⟩ => ⟨S256x64, .f32⟩
  | .local _ .vmem, ⟨4, _⟩ => ⟨S256x4096, .f32⟩
  | .local _ .vmem, ⟨5, _⟩ => ⟨S256x4096, .f32⟩
  | _, _ => ⟨S4096x64x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x64x5_S4096x320 : S4096x64x5.ShapeCasts S4096x320
  inb_S256x320_S256x320_0_0 : ∀ a, (![0, 0] : Fin 2 → Nat) a + S256x320.size a ≤ S256x320.size a
  h_S256x320 : 0 < S256x320.numel
  shapeCasts_S256x320_S256x320 : S256x320.ShapeCasts S256x320
  iota_S320x64_d0_w32 : S320x64.Iotas .tc 32 [0]
  iota_S320x64_d1_w32 : S320x64.Iotas .tc 32 [1]
  inb_S256x64_S256x64_0_0 : ∀ a, (![0, 0] : Fin 2 → Nat) a + S256x64.size a ≤ S256x64.size a
  h_S256x64 : 0 < S256x64.numel
  concatenates_S256x64_S256x64_S256x128_d1 : Shape.Concatenates [S256x64, S256x64] S256x128 1
  iota_S256x128_d1_w32 : S256x128.Iotas .tc 32 [1]
  slices_S256x64_o0_0_S256x1 : S256x64.Slices ![0, 0] S256x1
  shapeCasts_S256x1_S256x1 : S256x1.ShapeCasts S256x1
  broadcasts_S256x1_S256x128 : S256x1.Broadcasts S256x128
  slices_S256x64_o0_1_S256x1 : S256x64.Slices ![0, 1] S256x1
  inb_S256x4096_S256x128_0_0 : ∀ a, (![0, 0] : Fin 2 → Nat) a + S256x128.size a ≤ S256x4096.size a
  h_S256x128 : 0 < S256x128.numel
  slices_S256x64_o0_2_S256x1 : S256x64.Slices ![0, 2] S256x1
  slices_S256x64_o0_3_S256x1 : S256x64.Slices ![0, 3] S256x1
  inb_S256x4096_S256x128_0_128 : ∀ a, (![0, 128] : Fin 2 → Nat) a + S256x128.size a ≤ S256x4096.size a
  slices_S256x64_o0_4_S256x1 : S256x64.Slices ![0, 4] S256x1
  slices_S256x64_o0_5_S256x1 : S256x64.Slices ![0, 5] S256x1
  inb_S256x4096_S256x128_0_256 : ∀ a, (![0, 256] : Fin 2 → Nat) a + S256x128.size a ≤ S256x4096.size a
  slices_S256x64_o0_6_S256x1 : S256x64.Slices ![0, 6] S256x1
  slices_S256x64_o0_7_S256x1 : S256x64.Slices ![0, 7] S256x1
  inb_S256x4096_S256x128_0_384 : ∀ a, (![0, 384] : Fin 2 → Nat) a + S256x128.size a ≤ S256x4096.size a
  slices_S256x64_o0_8_S256x1 : S256x64.Slices ![0, 8] S256x1
  slices_S256x64_o0_9_S256x1 : S256x64.Slices ![0, 9] S256x1
  inb_S256x4096_S256x128_0_512 : ∀ a, (![0, 512] : Fin 2 → Nat) a + S256x128.size a ≤ S256x4096.size a
  slices_S256x64_o0_10_S256x1 : S256x64.Slices ![0, 10] S256x1
  slices_S256x64_o0_11_S256x1 : S256x64.Slices ![0, 11] S256x1
  inb_S256x4096_S256x128_0_640 : ∀ a, (![0, 640] : Fin 2 → Nat) a + S256x128.size a ≤ S256x4096.size a
  slices_S256x64_o0_12_S256x1 : S256x64.Slices ![0, 12] S256x1
  slices_S256x64_o0_13_S256x1 : S256x64.Slices ![0, 13] S256x1
  inb_S256x4096_S256x128_0_768 : ∀ a, (![0, 768] : Fin 2 → Nat) a + S256x128.size a ≤ S256x4096.size a
  slices_S256x64_o0_14_S256x1 : S256x64.Slices ![0, 14] S256x1
  slices_S256x64_o0_15_S256x1 : S256x64.Slices ![0, 15] S256x1
  inb_S256x4096_S256x128_0_896 : ∀ a, (![0, 896] : Fin 2 → Nat) a + S256x128.size a ≤ S256x4096.size a
  slices_S256x64_o0_16_S256x1 : S256x64.Slices ![0, 16] S256x1
  slices_S256x64_o0_17_S256x1 : S256x64.Slices ![0, 17] S256x1
  inb_S256x4096_S256x128_0_1024 : ∀ a, (![0, 1024] : Fin 2 → Nat) a + S256x128.size a ≤ S256x4096.size a
  slices_S256x64_o0_18_S256x1 : S256x64.Slices ![0, 18] S256x1
  slices_S256x64_o0_19_S256x1 : S256x64.Slices ![0, 19] S256x1
  inb_S256x4096_S256x128_0_1152 : ∀ a, (![0, 1152] : Fin 2 → Nat) a + S256x128.size a ≤ S256x4096.size a
  slices_S256x64_o0_20_S256x1 : S256x64.Slices ![0, 20] S256x1
  slices_S256x64_o0_21_S256x1 : S256x64.Slices ![0, 21] S256x1
  inb_S256x4096_S256x128_0_1280 : ∀ a, (![0, 1280] : Fin 2 → Nat) a + S256x128.size a ≤ S256x4096.size a
  slices_S256x64_o0_22_S256x1 : S256x64.Slices ![0, 22] S256x1
  slices_S256x64_o0_23_S256x1 : S256x64.Slices ![0, 23] S256x1
  inb_S256x4096_S256x128_0_1408 : ∀ a, (![0, 1408] : Fin 2 → Nat) a + S256x128.size a ≤ S256x4096.size a
  slices_S256x64_o0_24_S256x1 : S256x64.Slices ![0, 24] S256x1
  slices_S256x64_o0_25_S256x1 : S256x64.Slices ![0, 25] S256x1
  inb_S256x4096_S256x128_0_1536 : ∀ a, (![0, 1536] : Fin 2 → Nat) a + S256x128.size a ≤ S256x4096.size a
  slices_S256x64_o0_26_S256x1 : S256x64.Slices ![0, 26] S256x1
  slices_S256x64_o0_27_S256x1 : S256x64.Slices ![0, 27] S256x1
  inb_S256x4096_S256x128_0_1664 : ∀ a, (![0, 1664] : Fin 2 → Nat) a + S256x128.size a ≤ S256x4096.size a
  slices_S256x64_o0_28_S256x1 : S256x64.Slices ![0, 28] S256x1
  slices_S256x64_o0_29_S256x1 : S256x64.Slices ![0, 29] S256x1
  inb_S256x4096_S256x128_0_1792 : ∀ a, (![0, 1792] : Fin 2 → Nat) a + S256x128.size a ≤ S256x4096.size a
  slices_S256x64_o0_30_S256x1 : S256x64.Slices ![0, 30] S256x1
  slices_S256x64_o0_31_S256x1 : S256x64.Slices ![0, 31] S256x1
  inb_S256x4096_S256x128_0_1920 : ∀ a, (![0, 1920] : Fin 2 → Nat) a + S256x128.size a ≤ S256x4096.size a
  slices_S256x64_o0_32_S256x1 : S256x64.Slices ![0, 32] S256x1
  slices_S256x64_o0_33_S256x1 : S256x64.Slices ![0, 33] S256x1
  inb_S256x4096_S256x128_0_2048 : ∀ a, (![0, 2048] : Fin 2 → Nat) a + S256x128.size a ≤ S256x4096.size a
  slices_S256x64_o0_34_S256x1 : S256x64.Slices ![0, 34] S256x1
  slices_S256x64_o0_35_S256x1 : S256x64.Slices ![0, 35] S256x1
  inb_S256x4096_S256x128_0_2176 : ∀ a, (![0, 2176] : Fin 2 → Nat) a + S256x128.size a ≤ S256x4096.size a
  slices_S256x64_o0_36_S256x1 : S256x64.Slices ![0, 36] S256x1
  slices_S256x64_o0_37_S256x1 : S256x64.Slices ![0, 37] S256x1
  inb_S256x4096_S256x128_0_2304 : ∀ a, (![0, 2304] : Fin 2 → Nat) a + S256x128.size a ≤ S256x4096.size a
  slices_S256x64_o0_38_S256x1 : S256x64.Slices ![0, 38] S256x1
  slices_S256x64_o0_39_S256x1 : S256x64.Slices ![0, 39] S256x1
  inb_S256x4096_S256x128_0_2432 : ∀ a, (![0, 2432] : Fin 2 → Nat) a + S256x128.size a ≤ S256x4096.size a
  slices_S256x64_o0_40_S256x1 : S256x64.Slices ![0, 40] S256x1
  slices_S256x64_o0_41_S256x1 : S256x64.Slices ![0, 41] S256x1
  inb_S256x4096_S256x128_0_2560 : ∀ a, (![0, 2560] : Fin 2 → Nat) a + S256x128.size a ≤ S256x4096.size a
  slices_S256x64_o0_42_S256x1 : S256x64.Slices ![0, 42] S256x1
  slices_S256x64_o0_43_S256x1 : S256x64.Slices ![0, 43] S256x1
  inb_S256x4096_S256x128_0_2688 : ∀ a, (![0, 2688] : Fin 2 → Nat) a + S256x128.size a ≤ S256x4096.size a
  slices_S256x64_o0_44_S256x1 : S256x64.Slices ![0, 44] S256x1
  slices_S256x64_o0_45_S256x1 : S256x64.Slices ![0, 45] S256x1
  inb_S256x4096_S256x128_0_2816 : ∀ a, (![0, 2816] : Fin 2 → Nat) a + S256x128.size a ≤ S256x4096.size a
  slices_S256x64_o0_46_S256x1 : S256x64.Slices ![0, 46] S256x1
  slices_S256x64_o0_47_S256x1 : S256x64.Slices ![0, 47] S256x1
  inb_S256x4096_S256x128_0_2944 : ∀ a, (![0, 2944] : Fin 2 → Nat) a + S256x128.size a ≤ S256x4096.size a
  slices_S256x64_o0_48_S256x1 : S256x64.Slices ![0, 48] S256x1
  slices_S256x64_o0_49_S256x1 : S256x64.Slices ![0, 49] S256x1
  inb_S256x4096_S256x128_0_3072 : ∀ a, (![0, 3072] : Fin 2 → Nat) a + S256x128.size a ≤ S256x4096.size a
  slices_S256x64_o0_50_S256x1 : S256x64.Slices ![0, 50] S256x1
  slices_S256x64_o0_51_S256x1 : S256x64.Slices ![0, 51] S256x1
  inb_S256x4096_S256x128_0_3200 : ∀ a, (![0, 3200] : Fin 2 → Nat) a + S256x128.size a ≤ S256x4096.size a
  slices_S256x64_o0_52_S256x1 : S256x64.Slices ![0, 52] S256x1
  slices_S256x64_o0_53_S256x1 : S256x64.Slices ![0, 53] S256x1
  inb_S256x4096_S256x128_0_3328 : ∀ a, (![0, 3328] : Fin 2 → Nat) a + S256x128.size a ≤ S256x4096.size a
  slices_S256x64_o0_54_S256x1 : S256x64.Slices ![0, 54] S256x1
  slices_S256x64_o0_55_S256x1 : S256x64.Slices ![0, 55] S256x1
  inb_S256x4096_S256x128_0_3456 : ∀ a, (![0, 3456] : Fin 2 → Nat) a + S256x128.size a ≤ S256x4096.size a
  slices_S256x64_o0_56_S256x1 : S256x64.Slices ![0, 56] S256x1
  slices_S256x64_o0_57_S256x1 : S256x64.Slices ![0, 57] S256x1
  inb_S256x4096_S256x128_0_3584 : ∀ a, (![0, 3584] : Fin 2 → Nat) a + S256x128.size a ≤ S256x4096.size a
  slices_S256x64_o0_58_S256x1 : S256x64.Slices ![0, 58] S256x1
  slices_S256x64_o0_59_S256x1 : S256x64.Slices ![0, 59] S256x1
  inb_S256x4096_S256x128_0_3712 : ∀ a, (![0, 3712] : Fin 2 → Nat) a + S256x128.size a ≤ S256x4096.size a
  slices_S256x64_o0_60_S256x1 : S256x64.Slices ![0, 60] S256x1
  slices_S256x64_o0_61_S256x1 : S256x64.Slices ![0, 61] S256x1
  inb_S256x4096_S256x128_0_3840 : ∀ a, (![0, 3840] : Fin 2 → Nat) a + S256x128.size a ≤ S256x4096.size a
  slices_S256x64_o0_62_S256x1 : S256x64.Slices ![0, 62] S256x1
  slices_S256x64_o0_63_S256x1 : S256x64.Slices ![0, 63] S256x1
  inb_S256x4096_S256x128_0_3968 : ∀ a, (![0, 3968] : Fin 2 → Nat) a + S256x128.size a ≤ S256x4096.size a
  shapeCasts_S4096x4096_S4096x64x64 : S4096x4096.ShapeCasts S4096x64x64
  dot_S256x320_S320x64_S256x64_1_0_0_1_n_n_wf : DotDims.WF S256x320 S320x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x320.size a ≤ S4096x320.size a
  hwx0_0 : ∀ i : grid0.Coords, EltTy.bits .f32 = 32 ∨ (Rect.block (s := S4096x320) S256x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)

variable [Facts₀]

def dot_S256x320_S320x64_S256x64_1_0_0_1_n_n : DotDims S256x320 S320x64 S256x64 where
  lhsContracting := [1]
  rhsContracting := [0]
  lhsNonContracting := [0]
  rhsNonContracting := [1]
  lhsBatch := []
  rhsBatch := []
  wf := dot_S256x320_S320x64_S256x64_1_0_0_1_n_n_wf

abbrev win0_0 : Pipeline.Window sig grid0 :=
  Pipeline.Window.ofSpec (Memref.whole main_v0) S256x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64x5 : Shape := ⟨3, ![4096, 64, 5]⟩
abbrev S4096x64x1 : Shape := ⟨3, ![4096, 64, 1]⟩
abbrev S4096x64 : Shape := ⟨2, ![4096, 64]⟩
abbrev S_ : Shape := ⟨0, ![]⟩
abbrev S4096x64x64 : Shape := ⟨3, ![4096, 64, 64]⟩
abbrev S4096x1x64 : Shape := ⟨3, ![4096, 1, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096x64x5, .f32⟩
  | .hbm, ⟨1, _⟩ => ⟨S4096x64x1, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .i1⟩
  | .hbm, ⟨6, _⟩ => ⟨S_, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .i1⟩
  | .hbm, ⟨14, _⟩ => ⟨S_, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .i1⟩
  | .hbm, ⟨22, _⟩ => ⟨S_, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S_, .f32⟩
  | .hbm, ⟨39, _⟩ => ⟨S4096x64, .f32⟩
  | .hbm, ⟨40, _⟩ => ⟨S4096x64, .f32⟩
  | .hbm, ⟨41, _⟩ => ⟨S_, .f32⟩
  | .hbm, ⟨42, _⟩ => ⟨S4096x64, .f32⟩
  | .hbm, ⟨43, _⟩ => ⟨S4096x64, .f32⟩
  | .hbm, ⟨44, _⟩ => ⟨S_, .f32⟩
  | .hbm, ⟨45, _⟩ => ⟨S4096x64x64, .f32⟩
  | .hbm, ⟨46, _⟩ => ⟨S4096x64x1, .f32⟩
  | .hbm, ⟨47, _⟩ => ⟨S_, .f32⟩
  | .hbm, ⟨48, _⟩ => ⟨S4096x64x1, .f32⟩
  | .hbm, ⟨49, _⟩ => ⟨S4096x64x1, .f32⟩
  | .hbm, ⟨50, _⟩ => ⟨S4096x1x64, .f32⟩
  | .hbm, ⟨51, _⟩ => ⟨S4096x64x64, .f32⟩
  | .hbm, ⟨52, _⟩ => ⟨S4096x64x64, .f32⟩
  | .hbm, ⟨53, _⟩ => ⟨S4096x64x64, .f32⟩
  | .hbm, ⟨54, _⟩ => ⟨S4096x64x64, .f32⟩
  | .hbm, ⟨55, _⟩ => ⟨S4096x64x64, .f32⟩
  | .hbm, ⟨56, _⟩ => ⟨S4096x64x1, .f32⟩
  | .hbm, ⟨57, _⟩ => ⟨S_, .f32⟩
  | .hbm, ⟨58, _⟩ => ⟨S4096x64x1, .f32⟩
  | .hbm, ⟨59, _⟩ => ⟨S4096x64x1, .f32⟩
  | .hbm, ⟨60, _⟩ => ⟨S4096x1x64, .f32⟩
  | .hbm, ⟨61, _⟩ => ⟨S4096x64x64, .f32⟩
  | .hbm, ⟨62, _⟩ => ⟨S4096x64x64, .f32⟩
  | .hbm, ⟨63, _⟩ => ⟨S4096x64x64, .f32⟩
  | .hbm, ⟨64, _⟩ => ⟨S4096x64x64, .f32⟩
  | .hbm, ⟨65, _⟩ => ⟨S4096x64x64, .f32⟩
  | _, _ => ⟨S4096x64x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_v9 : Ref sig .tc := ⟨.hbm, 21, rfl⟩
abbrev main_cst_6 : Ref sig .tc := ⟨.hbm, 22, rfl⟩
abbrev main_cst_7 : Ref sig .tc := ⟨.hbm, 23, rfl⟩
abbrev main_call2_v0 : Ref sig .tc := ⟨.hbm, 24, rfl⟩
abbrev main_call2_v1 : Ref sig .tc := ⟨.hbm, 25, rfl⟩
abbrev main_v10 : Ref sig .tc := ⟨.hbm, 26, rfl⟩
abbrev main_cst_8 : Ref sig .tc := ⟨.hbm, 27, rfl⟩
abbrev main_v11 : Ref sig .tc := ⟨.hbm, 28, rfl⟩
abbrev main_v12 : Ref sig .tc := ⟨.hbm, 29, rfl⟩
abbrev main_cst_9 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_10 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_11 : Ref sig .tc := ⟨.hbm, 38, rfl⟩
abbrev main_v19 : Ref sig .tc := ⟨.hbm, 39, rfl⟩
abbrev main_v20 : Ref sig .tc := ⟨.hbm, 40, rfl⟩
abbrev main_cst_12 : Ref sig .tc := ⟨.hbm, 41, rfl⟩
abbrev main_v21 : Ref sig .tc := ⟨.hbm, 42, rfl⟩
abbrev main_v22 : Ref sig .tc := ⟨.hbm, 43, rfl⟩
abbrev main_cst_13 : Ref sig .tc := ⟨.hbm, 44, rfl⟩
abbrev main_v23 : Ref sig .tc := ⟨.hbm, 45, rfl⟩
abbrev main_v24 : Ref sig .tc := ⟨.hbm, 46, rfl⟩
abbrev main_cst_14 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_15 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]

class Facts₀ : Prop where
  slices_S4096x64x5_S4096x64x1_0_0_4 : S4096x64x5.Slices ![0, 0, 4] S4096x64x1
  shapeCasts_S4096x64x1_S4096x64 : S4096x64x1.ShapeCasts S4096x64
  bcast_S_S4096x64 : S_.BroadcastsInDim S4096x64 (![] : Fin 0 → Fin S4096x64.rank)
  bcast_S_S4096x64x64 : S_.BroadcastsInDim S4096x64x64 (![] : Fin 0 → Fin S4096x64x64.rank)
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)

variable [Facts₀]

class Facts : Prop extends Facts₀ where

variable [Facts]
-- ==== Proof.Spec.lean ====
/-
  What both programs compute, on the extended reals.

  From obj_slots : [4096, 64, 5] take the tag t(b, n) = obj_slots(b, n, 4). With the indicators
  car = [t = 2], goal = [t = 3], player = [t = 1] (each the number 1 or 0):

    alpha(b, n)   = 2 · ((0.6 · car + 0.3 · goal) + 0.1 · player) − 1            at (b, n),
    bias(b, p, c) = player(b, p) · (0.8 · (goal(b, c) − car(b, c))).

  The reference forms the bias as (0 − (0.8 · player(b, p)) · car(b, c)) + (0.8 · player(b, p)) · goal(b, c).
  Every factor is a real number — an indicator is 0 or 1, the literal a finite binary fraction — so the two
  forms agree by the ring laws of ℝ (on the extended reals the distributive law needs exactly this).
  The decimal literals stay as their f32 words: the same word on both sides is never evaluated, only the
  words of 0, of 1 and (for realness) of 0.8 are.
-/
import Idealize.ShloMosaic.PureOps.Ideal
import Idealize.ShloMosaic.PureOps.Ideal.Laws
import Idealize.ShloMosaic.Lib.ValueIdx
import Idealize.ShloMosaic.Lib.IdealHost

noncomputable section

namespace Cert.Guidance

open Idealize.ShloMosaic Idealize.ShloMosaic.ValueIdx

/-- The extended real an f32 word denotes. -/
abbrev lit (w : BitVec 32) : EReal := Ideal.ofBits .f32 w

/-- The indicator of "x is the number the word w denotes", as both programs spell it: the comparison
    selecting between the words of 1 and of 0. -/
def ind (x : EReal) (w : BitVec 32) : EReal :=
  Scalar.select (Ideal.cmp .oeq x (lit w)) (lit 0x3F800000#32) (lit 0x00000000#32)

/-- An indicator is the real number 1 or 0. -/
theorem ind_real (x : EReal) (w : BitVec 32) : ∃ r : ℝ, ind x w = (r : EReal) := by
  unfold ind Scalar.select
  split
  · exact ⟨1, by rw [show lit 0x3F800000#32 = 1 from Ideal.ofBits_one_f32]; rfl⟩
  · exact ⟨0, by rw [show lit 0x00000000#32 = 0 from Ideal.ofBits_zero_f32]; rfl⟩

/-- The word of 0.8 denotes a real number (13421773 · 2⁻²⁴). -/
theorem lit_four_fifths : lit 0x3F4CCCCD#32 = ((13421773 / 16777216 : ℝ) : EReal) := by
  simp [lit, Ideal.ofBits, Ideal.ieee, -EReal.coe_mul]; norm_num

/-- alpha from the tag: 2 · ((0.6 · car + 0.3 · goal) + 0.1 · player) − 1. -/
def alphaOf (t : EReal) : EReal :=
  lit 0x40000000#32 * ((lit 0x3F19999A#32 * ind t 0x40000000#32 + lit 0x3E99999A#32 * ind t 0x40400000#32)
    + lit 0x3DCCCCCD#32 * ind t 0x3F800000#32) - lit 0x3F800000#32

/-- The pairwise bias from the tag of the row's object (tp) and of the column's (tc), in the kernel's form:
    player(tp) · (0.8 · (goal(tc) − car(tc))). -/
def biasOf (tp tc : EReal) : EReal :=
  ind tp 0x3F800000#32 * (lit 0x3F4CCCCD#32 * (ind tc 0x40400000#32 - ind tc 0x40000000#32))

/-- The same in the reference's form: (0 − (0.8 · player(tp)) · car(tc)) + (0.8 · player(tp)) · goal(tc). -/
def biasRef (tp tc : EReal) : EReal :=
  (lit 0x00000000#32 - (lit 0x3F4CCCCD#32 * ind tp 0x3F800000#32) * ind tc 0x40000000#32)
    + (lit 0x3F4CCCCD#32 * ind tp 0x3F800000#32) * ind tc 0x40400000#32

/-- The two forms are one number: all factors are reals, where a·(k·(g − c)) = (0 − (k·a)·c) + (k·a)·g. -/
theorem biasRef_eq (tp tc : EReal) : biasRef tp tc = biasOf tp tc := by
  unfold biasRef biasOf
  obtain ⟨a, ha⟩ := ind_real tp 0x3F800000#32
  obtain ⟨g, hg⟩ := ind_real tc 0x40400000#32
  obtain ⟨c, hc⟩ := ind_real tc 0x40000000#32
  rw [ha, hg, hc, lit_four_fifths, show lit 0x00000000#32 = ((0 : ℝ) : EReal) from Ideal.ofBits_zero_f32]
  exact_mod_cast (by ring : ((0 : ℝ) - (13421773 / 16777216 * a) * c) + (13421773 / 16777216 * a) * g
    = a * (13421773 / 16777216 * (g - c)))

/-- The tag column of obj_slots at (b, n). -/
abbrev tag (a : (⟨3, ![4096, 64, 5]⟩ : Shape).Idx → EReal) (b : Fin 4096) (n : Fin 64) : EReal :=
  a (ix3 b n (4 : Fin 5))

/-- alpha : [4096, 64]. -/
def alpha (a : (⟨3, ![4096, 64, 5]⟩ : Shape).Idx → EReal) : (⟨2, ![4096, 64]⟩ : Shape).Idx → EReal :=
  fun i => alphaOf (tag a (i 0) (i 1))

/-- bias : [4096, 64, 64]. -/
def bias (a : (⟨3, ![4096, 64, 5]⟩ : Shape).Idx → EReal) : (⟨3, ![4096, 64, 64]⟩ : Shape).Idx → EReal :=
  fun i => biasOf (tag a (i 0) (i 1)) (tag a (i 0) (i 2))

end Cert.Guidance

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibSelectionProduct.lean ====
/-
  A matrix product that only selects, over the extended reals.

  Let E be a K × N matrix of zeros and ones with exactly one 1 in each column: E(k, n) = 1 when k = f(n) and 0
  otherwise, for a selector f : columns → rows. Then an M × K matrix x times E, accumulated into the zero matrix,
  is x with its columns picked by f: entry (a, b) of the product is ∑ₖ x(a, k) · E(k, b), in which the term
  k = f(b) is x(a, f b) · 1 and every other term is x(a, k) · 0 = 0. On the extended reals this needs no
  finiteness of x: 0 absorbs every extended real and 1 is neutral. (A gather of columns — or, with x's rows
  flattened objects, of one slot per object — written as a product with an iota-built matrix.)
-/
import proofs.«101031_g5325759447573_cont_9to1_m_770_5_alg».proof.Proof.LibPlainMatmul

noncomputable section

namespace Cert.LibSelectionProduct

open Idealize.ShloMosaic Idealize.ShloMosaic.ValueIdx

/-- x · E at (a, b) is x (a, f b) when E (k, n) = [k = f n], for the plain dimension numbers
    ([1] × [0], free axes [0] and [1], no batch axes) and any printed record of that form. -/
theorem matmul_selection_apply {M K N : Nat} (D : DotDims ⟨2, ![M, K]⟩ ⟨2, ![K, N]⟩ ⟨2, ![M, N]⟩) {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (E : FVec Ideal ⟨2, ![K, N]⟩ φ₂)
    (f : Fin N → Fin K) (hE : ∀ (k : Fin K) (n : Fin N), E (ix2 k n) = if k = f n then 1 else 0)
    (a : Fin M) (b : Fin N) :
    FloatOps.matmul D prec x E (constant (F := Ideal) ⟨2, ![M, N]⟩ .f32 0x00000000#32) (ix2 a b) = x (ix2 a (f b)) := by
  refine (Cert.LibPlainMatmul.matmul_zero_apply D hlc hrc hln hrn hlb hrb prec x E a b).trans ?_
  rw [Finset.sum_eq_single (f b)]
  · rw [hE, if_pos rfl, mul_one]
  · intro k _ hk
    rw [hE, if_neg hk, mul_zero]
  · intro h; exact absurd (Finset.mem_univ _) h

end Cert.LibSelectionProduct

end
-- ==== Proof.KernelTags.lean ====
/-
  One block of the kernel, read at the ideal instance: the tags and alpha.

  A block x of the flattened input has 256 rows of 320 numbers; object n of a row keeps its five slots in columns
  5n … 5n+4, the tag in column 5n+4. The kernel multiplies x by the 320 × 64 matrix E with E(k, n) = 1 when
  k = 5n + 4 and 0 otherwise, so entry (r, n) of the product is ∑ₖ x(r, k) · E(k, n) = x(r, 5n + 4): one term of
  the sum is x(r, 5n+4) · 1 and every other is x(r, k) · 0 = 0 — on the extended reals too, where 0 absorbs.
  The three indicator arrays compare that tag with 2, 3 and 1; alpha is the specification's alphaOf of the tag.
-/
import proofs.«101031_g5325759447573_cont_9to1_m_770_5_alg».proof.Proof.Gen.KernelIdeal.Frame
import proofs.«101031_g5325759447573_cont_9to1_m_770_5_alg».proof.Proof.Spec
import proofs.«101031_g5325759447573_cont_9to1_m_770_5_alg».proof.Proof.LibSelectionProduct
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Guidance

/-- The column of the flattened row that holds object n's tag. -/
def tagCol (n : Fin 64) : Fin 320 := ⟨5 * n.val + 4, by have := n.isLt; omega⟩

/-- Among row numbers below 320, the 32-bit word of k equals 5 · n + 4 computed on 32-bit words exactly when
    k = 5n + 4: nothing wraps. -/
theorem word_eq_iff (k : Fin 320) (n : Fin 64) :
    BitVec.ofNat 32 k.val = 5#32 * BitVec.ofNat 32 n.val + 4#32 ↔ k = tagCol n := by
  have hk := k.isLt; have hn := n.isLt
  rw [show (5#32 * BitVec.ofNat 32 n.val + 4#32) = BitVec.ofNat 32 (5 * n.val + 4) by
    rw [BitVec.ofNat_add, BitVec.ofNat_mul]]
  constructor
  · intro h
    have := congrArg BitVec.toNat h
    simp only [BitVec.toNat_ofNat] at this
    apply Fin.ext
    show k.val = 5 * n.val + 4
    omega
  · intro h; rw [h]; rfl

/-- The selection matrix, as the kernel builds it from two coordinate arrays. -/
def selMat (h0 : S320x64.Iotas .tc 32 [0]) (h1 : S320x64.Iotas .tc 32 [1]) : FVec Ideal S320x64 .f32 :=
  select (cmpi .eq (iota .tc S320x64 32 [0] h0)
      (addi (muli (broadcast S320x64 5#32) (iota .tc S320x64 32 [1] h1)) (broadcast S320x64 4#32)))
    (broadcast S320x64 (lit 0x3F800000#32)) (broadcast S320x64 (lit 0x00000000#32))

/-- Its entry (k, n) is 1 on the tag's column and 0 elsewhere. -/
theorem selMat_apply (h0 : S320x64.Iotas .tc 32 [0]) (h1 : S320x64.Iotas .tc 32 [1]) (k : Fin 320) (n : Fin 64) :
    selMat h0 h1 (ix2 k n) = if k = tagCol n then 1 else 0 := by
  unfold selMat
  rw [select_apply]
  show Scalar.select (IntOp.cmpi .eq (iota .tc S320x64 32 [0] h0 (ix2 k n))
      (IntOp.addi (IntOp.muli 5#32 (iota .tc S320x64 32 [1] h1 (ix2 k n))) 4#32)) (lit 0x3F800000#32) (lit 0x00000000#32) = _
  rw [iota_single_apply, iota_single_apply]
  show Scalar.select (BitVec.ofBool (BitVec.ofNat 32 k.val == 5#32 * BitVec.ofNat 32 n.val + 4#32))
      (lit 0x3F800000#32) (lit 0x00000000#32) = _
  by_cases h : k = tagCol n
  · rw [if_pos h, show (BitVec.ofNat 32 k.val == 5#32 * BitVec.ofNat 32 n.val + 4#32) = true from
      beq_iff_eq.mpr ((word_eq_iff k n).mpr h)]
    exact Ideal.ofBits_one_f32
  · rw [if_neg h, show (BitVec.ofNat 32 k.val == 5#32 * BitVec.ofNat 32 n.val + 4#32) = false from
      beq_eq_false_iff_ne.mpr (fun e => h ((word_eq_iff k n).mp e))]
    exact Ideal.ofBits_zero_f32

/-- The product's entry (r, n) is the tag x(r, 5n + 4). -/
theorem matmul_sel_apply (D : DotDims S256x320 S320x64 S256x64)
    (hlc : D.lhsContracting = [1]) (hrc : D.rhsContracting = [0]) (hln : D.lhsNonContracting = [0])
    (hrn : D.rhsNonContracting = [1]) (hlb : D.lhsBatch = []) (hrb : D.rhsBatch = [])
    (h0 : S320x64.Iotas .tc 32 [0]) (h1 : S320x64.Iotas .tc 32 [1])
    (x : FVec Ideal S256x320 .f32) (r : Fin 256) (n : Fin 64) :
    FloatOps.matmul D none x (selMat h0 h1) (constant (F := Ideal) S256x64 .f32 0x00000000#32) (ix2 r n)
      = x (ix2 r (tagCol n)) := by
  exact Cert.LibSelectionProduct.matmul_selection_apply (M := 256) (K := 320) (N := 64) D hlc hrc hln hrn hlb hrb none x
    (selMat h0 h1) tagCol (selMat_apply h0 h1) r n

/-- The two zero offsets of a whole-buffer rectangle, however spelt. -/
theorem off_zero : (![0, 0] : Fin 2 → Nat) = fun _ => 0 := funext fun a => by fin_cases a <;> rfl

/-- The body's tag array: the block times the selection matrix. -/
theorem tags_apply (x : Vec Ideal S256x320 .f32) (r : Fin 256) (n : Fin 64) :
    k0_pay4 (F := Ideal) x (ix2 r n) = x (ix2 r (tagCol n)) := by
  have e : k0_pay4 (F := Ideal) x = FloatOps.matmul dot_S256x320_S320x64_S256x64_1_0_0_1_n_n none
      (show FVec Ideal S256x320 .f32 from x)
      (selMat iota_S320x64_d0_w32 iota_S320x64_d1_w32) (constant (F := Ideal) S256x64 .f32 0x00000000#32) := by
    unfold k0_pay4
    rw [shapeCast_self]
    rfl
  rw [e]
  exact matmul_sel_apply _ rfl rfl rfl rfl rfl rfl _ _ x r n

/-- car: the tag compared with 2. -/
theorem car_apply (x : Vec Ideal S256x320 .f32) (r : Fin 256) (n : Fin 64) :
    k0_pay5 (F := Ideal) x (ix2 r n) = ind (x (ix2 r (tagCol n))) 0x40000000#32 := by
  have e : k0_pay5 (F := Ideal) x (ix2 r n) = ind (k0_pay4 (F := Ideal) x (ix2 r n)) 0x40000000#32 := rfl
  rw [e, tags_apply]

/-- goal: the tag compared with 3. -/
theorem goal_apply (x : Vec Ideal S256x320 .f32) (r : Fin 256) (n : Fin 64) :
    k0_pay6 (F := Ideal) x (ix2 r n) = ind (x (ix2 r (tagCol n))) 0x40400000#32 := by
  have e : k0_pay6 (F := Ideal) x (ix2 r n) = ind (k0_pay4 (F := Ideal) x (ix2 r n)) 0x40400000#32 := rfl
  rw [e, tags_apply]

/-- player: the tag compared with 1. -/
theorem player_apply (x : Vec Ideal S256x320 .f32) (r : Fin 256) (n : Fin 64) :
    k0_pay7 (F := Ideal) x (ix2 r n) = ind (x (ix2 r (tagCol n))) 0x3F800000#32 := by
  have e : k0_pay7 (F := Ideal) x (ix2 r n) = ind (k0_pay4 (F := Ideal) x (ix2 r n)) 0x3F800000#32 := rfl
  rw [e, tags_apply]

/-- The alpha block the body stores, entry (r, n): alphaOf of the tag x(r, 5n + 4). -/
theorem alphaBlock_apply (x : Vec Ideal S256x320 .f32) (r : Fin 256) (n : Fin 64) :
    out0_1 (F := Ideal) x (ix2 r n) = alphaOf (x (ix2 r (tagCol n))) := by
  unfold out0_1
  rw [View.canon_unit_zero off_zero, View.ld_unit_zero (S := S256x320) off_zero]
  have e : k0_pay9 (k0_pay8 (F := Ideal) x) (Scalar.ofBits .f32 0x3F800000#32) (ix2 r n)
      = lit 0x40000000#32 * ((lit 0x3F19999A#32 * k0_pay5 (F := Ideal) x (ix2 r n)
          + lit 0x3E99999A#32 * k0_pay6 (F := Ideal) x (ix2 r n))
        + lit 0x3DCCCCCD#32 * k0_pay7 (F := Ideal) x (ix2 r n)) - lit 0x3F800000#32 := rfl
  rw [e, car_apply, goal_apply, player_apply]
  rfl

end Cert.KernelIdeal.Tile

end
-- ==== Proof.KernelBias.lean ====
/-
  One block of the kernel, read at the ideal instance: the pairwise bias.

  For a row r of the block the kernel writes the 64 × 64 bias flat, 4096 numbers, in 32 slabs of 128 lanes. Slab i
  holds rows p = 2i and p = 2i + 1 of the 64 × 64 matrix: lane l < 64 carries player(r, 2i) and lane l ≥ 64 carries
  player(r, 2i + 1), each times the column vector 0.8 · (goal − car) at object l mod 64 (the vector laid twice
  side by side). So flat column q = 128 i + l is player(r, q / 64) · (0.8 · (goal(r, q % 64) − car(r, q % 64))),
  the specification's biasOf of the tags of objects q / 64 and q % 64: all 32 slabs are restrictions of that one
  function of (r, q), and together they tile the 4096 columns.
-/
import proofs.«101031_g5325759447573_cont_9to1_m_770_5_alg».proof.Proof.KernelTags

noncomputable section

namespace Cert.KernelIdeal.Tile

open Cert.KernelIdeal Cert.KernelIdeal.Gen Idealize.ShloMosaic Idealize.ShloMosaic.ValueIdx Cert.Guidance

/-- The row object of flat column q of a row of the 64 × 64 bias: q / 64. -/
def rowObj (q : Fin 4096) : Fin 64 := ⟨q.val / 64, by have := q.isLt; omega⟩
/-- The column object of flat column q: q % 64. -/
def colObj (q : Fin 4096) : Fin 64 := ⟨q.val % 64, Nat.mod_lt _ (by decide)⟩

/-- A [256, 1] column repeated along 128 lanes reads, at (r, l), the column's entry of row r. -/
theorem lanes_apply (v : FVec Ideal S256x1 .f32) (h : S256x1.Broadcasts S256x128) (r : Fin 256) (l : Fin 128) :
    broadcastTo S256x128 v h (ix2 r l) = v (ix2 r (0 : Fin 1)) :=
  broadcastTo_apply v h (ix2 r l) (ix2 r (0 : Fin 1)) (fun a => match a with
    | ⟨0, _⟩ => by show r.val = if (256 : Nat) = 1 then 0 else r.val; rw [if_neg (by decide)]
    | ⟨1, _⟩ => by show (0 : Nat) = if (1 : Nat) = 1 then 0 else l.val; rw [if_pos rfl])

/-- Column a of a [256, 64] array cut out as a [256, 1] column reads, at (r, 0), the array at (r, a). -/
theorem column_apply (v : FVec Ideal S256x64 .f32) (a : Nat) (ha : a < 64) (h : S256x64.Slices ![0, a] S256x1)
    (r : Fin 256) : extractStridedSlice S256x1 ![0, a] v h (ix2 r (0 : Fin 1)) = v (ix2 r ⟨a, ha⟩) :=
  extractStridedSlice_apply ![0, a] v h (ix2 r (0 : Fin 1)) (ix2 r ⟨a, ha⟩) (fun ax => match ax with
    | ⟨0, _⟩ => by show r.val = 0 + r.val; omega
    | ⟨1, _⟩ => by show a = a + 0; omega)

/-- The lane test "l < 64" on 32-bit words, for the 128 lanes. -/
theorem lowHalf_apply (h : S256x128.Iotas .tc 32 [1]) (r : Fin 256) (l : Fin 128) :
    cmpi .slt (iota .tc S256x128 32 [1] h) (broadcast S256x128 64#32) (ix2 r l) = if l.val < 64 then 1#1 else 0#1 := by
  show IntOp.cmpi .slt (iota .tc S256x128 32 [1] h (ix2 r l)) 64#32 = _
  rw [iota_single_apply]
  show BitVec.ofBool ((BitVec.ofNat 32 l.val).slt 64#32) = _
  exact (by decide +kernel : ∀ l : Fin 128,
    BitVec.ofBool ((BitVec.ofNat 32 l.val).slt 64#32) = if l.val < 64 then 1#1 else 0#1) l

/-- A [256, 64] array laid twice side by side reads, at lane l, the array at l mod 64. -/
theorem twice_apply (v : FVec Ideal S256x64 .f32) (h : Shape.Concatenates [S256x64, S256x64] S256x128 1)
    (r : Fin 256) (l : Fin 128) :
    concatenate S256x128 1 [⟨S256x64, v⟩, ⟨S256x64, v⟩] h (ix2 r l)
      = v (ix2 r ⟨l.val % 64, Nat.mod_lt _ (by decide)⟩) := by
  have hl128 := l.isLt
  by_cases hl : l.val < 64
  · refine (concatenate_pair_apply_left (1 : Fin 2) v v h (ix2 r l) rfl (ix2 r ⟨l.val, hl⟩)
      (fun b => match b with | ⟨0, _⟩ => rfl | ⟨1, _⟩ => rfl)).trans ?_
    exact congrArg v (congrArg (ix2 r) (Fin.ext (Nat.mod_eq_of_lt hl).symm))
  · refine (concatenate_pair_apply_right (1 : Fin 2) v v h (ix2 r l) rfl rfl (ix2 r ⟨l.val - 64, by omega⟩)
      (fun b => match b with
        | ⟨0, _⟩ => fun _ => rfl
        | ⟨1, _⟩ => fun hne => absurd rfl hne)
      (by show l.val - 64 + 64 = l.val; omega)).trans ?_
    exact congrArg v (congrArg (ix2 r) (Fin.ext (by show l.val - 64 = l.val % 64; omega)))

/-- One slab of 128 lanes: where the lane test holds the player flag of object a, elsewhere that of object b (each a
    column of the player array repeated along the lanes), times the column vector. -/
def slab (a b : Nat) (ha : S256x64.Slices ![0, a] S256x1) (hb : S256x64.Slices ![0, b] S256x1)
    (hc : S256x1.ShapeCasts S256x1) (hbc : S256x1.Broadcasts S256x128)
    (pl : FVec Ideal S256x64 .f32) (cv : FVec Ideal S256x128 .f32) (lo : IVec S256x128 1) : FVec Ideal S256x128 .f32 :=
  mulf (select lo (broadcastTo S256x128 (shapeCast S256x1 (extractStridedSlice S256x1 ![0, a] pl ha) hc) hbc)
      (broadcastTo S256x128 (shapeCast S256x1 (extractStridedSlice S256x1 ![0, b] pl hb) hc) hbc)) cv

/-- Its entry (r, l). -/
theorem slab_apply (a b : Nat) (ha' : a < 64) (hb' : b < 64) (ha : S256x64.Slices ![0, a] S256x1)
    (hb : S256x64.Slices ![0, b] S256x1) (hc : S256x1.ShapeCasts S256x1) (hbc : S256x1.Broadcasts S256x128)
    (pl : FVec Ideal S256x64 .f32) (cv : FVec Ideal S256x128 .f32) (lo : IVec S256x128 1) (r : Fin 256) (l : Fin 128) :
    slab a b ha hb hc hbc pl cv lo (ix2 r l)
      = Scalar.select (lo (ix2 r l)) (pl (ix2 r ⟨a, ha'⟩)) (pl (ix2 r ⟨b, hb'⟩)) * cv (ix2 r l) := by
  unfold slab
  rw [mulf_apply, select_apply, lanes_apply, lanes_apply, shapeCast_self, shapeCast_self,
    column_apply _ a ha', column_apply _ b hb']

/-- The column vector 0.8 · (goal − car), laid twice: at lane l it is the value at object l mod 64. -/
theorem colVec_apply (car goal : FVec Ideal S256x64 .f32) (r : Fin 256) (l : Fin 128) :
    k0_pay10 (F := Ideal) car goal (ix2 r l)
      = lit 0x3F4CCCCD#32 * (goal (ix2 r ⟨l.val % 64, Nat.mod_lt _ (by decide)⟩)
          - car (ix2 r ⟨l.val % 64, Nat.mod_lt _ (by decide)⟩)) := by
  have e : k0_pay10 (F := Ideal) car goal = concatenate S256x128 1
      [⟨S256x64, mulf (broadcast S256x64 (lit 0x3F4CCCCD#32)) (subf goal car)⟩,
       ⟨S256x64, mulf (broadcast S256x64 (lit 0x3F4CCCCD#32)) (subf goal car)⟩]
      concatenates_S256x64_S256x64_S256x128_d1 := rfl
  rw [e, twice_apply]
  rfl

/-- The whole bias block as one function of (r, q): biasOf of the tags of objects q / 64 and q % 64 of row r. -/
def biasFn (x : S256x320.Idx → EReal) : S256x4096.Idx → EReal := fun y =>
  biasOf (x (ix2 (y 0) (tagCol (rowObj (y 1))))) (x (ix2 (y 0) (tagCol (colObj (y 1)))))

/-- Slab i (lanes 128 i … 128 i + 127, player flags of objects 2i and 2i + 1) is the restriction of that function
    to its columns. -/
theorem slab_is_bias (x : Vec Ideal S256x320 .f32) (i o a b : Nat) (hi : i < 32) (ho : o = 128 * i) (ha : a = 2 * i)
    (hb : b = 2 * i + 1) (hsa : S256x64.Slices ![0, a] S256x1) (hsb : S256x64.Slices ![0, b] S256x1)
    (hc : S256x1.ShapeCasts S256x1) (hbc : S256x1.Broadcasts S256x128)
    (inb : ∀ ax, (![0, o] : Fin 2 → Nat) ax + S256x128.size ax ≤ S256x4096.size ax)
    (y : (Rect.unit (s := S256x4096) ![0, o] S256x128.size inb).shape.Idx) :
    slab a b hsa hsb hc hbc (k0_pay7 (F := Ideal) x)
        (k0_pay10 (F := Ideal) (k0_pay5 (F := Ideal) x) (k0_pay6 (F := Ideal) x)) k0_pay11 y
      = biasFn x ((Rect.unit (s := S256x4096) ![0, o] S256x128.size inb).emb y) := by
  subst ho ha hb
  obtain ⟨r, l, rfl⟩ : ∃ (r : Fin 256) (l : Fin 128), y = ix2 r l := ⟨y 0, y 1, eq_ix2 y⟩
  have hl128 := l.isLt
  have hq : 128 * i + l.val < 4096 := by omega
  have he : (Rect.unit (s := S256x4096) ![0, 128 * i] S256x128.size inb).emb (ix2 r l)
      = ix2 r (⟨128 * i + l.val, hq⟩ : Fin 4096) :=
    funext fun ax => Fin.ext (by
      match ax with
      | ⟨0, _⟩ => show 0 + 1 * r.val = r.val; omega
      | ⟨1, _⟩ => show 128 * i + 1 * l.val = 128 * i + l.val; omega)
  rw [he, slab_apply (2 * i) (2 * i + 1) (by omega) (by omega), colVec_apply, car_apply, goal_apply,
    show k0_pay11 (ix2 r l) = if l.val < 64 then 1#1 else 0#1 from lowHalf_apply _ r l]
  show _ = biasOf (x (ix2 r (tagCol (rowObj ⟨128 * i + l.val, hq⟩)))) (x (ix2 r (tagCol (colObj ⟨128 * i + l.val, hq⟩))))
  have ec : colObj ⟨128 * i + l.val, hq⟩ = ⟨l.val % 64, Nat.mod_lt _ (by decide)⟩ :=
    Fin.ext (by show (128 * i + l.val) % 64 = l.val % 64; omega)
  unfold biasOf
  rw [ec]
  by_cases hl : l.val < 64
  · have er : rowObj ⟨128 * i + l.val, hq⟩ = ⟨2 * i, by omega⟩ :=
      Fin.ext (by show (128 * i + l.val) / 64 = 2 * i; omega)
    rw [if_pos hl, select_one, player_apply, er]
  · have er : rowObj ⟨128 * i + l.val, hq⟩ = ⟨2 * i + 1, by omega⟩ :=
      Fin.ext (by show (128 * i + l.val) / 64 = 2 * i + 1; omega)
    rw [if_neg hl, select_zero, player_apply, er]

/-! The 32 stored values, each a slab: slab i takes the player flags of objects 2i and 2i + 1. -/
theorem slab0_eq (car goal pl : FVec Ideal S256x64 .f32) :
    k0_pay12 (F := Ideal) car goal pl = slab 0 1 slices_S256x64_o0_0_S256x1 slices_S256x64_o0_1_S256x1
      shapeCasts_S256x1_S256x1 broadcasts_S256x1_S256x128 pl (k0_pay10 (F := Ideal) car goal) k0_pay11 := rfl
theorem slab1_eq (car goal pl : FVec Ideal S256x64 .f32) :
    k0_pay13 (F := Ideal) car goal pl = slab 2 3 slices_S256x64_o0_2_S256x1 slices_S256x64_o0_3_S256x1
      shapeCasts_S256x1_S256x1 broadcasts_S256x1_S256x128 pl (k0_pay10 (F := Ideal) car goal) k0_pay11 := rfl
theorem slab2_eq (car goal pl : FVec Ideal S256x64 .f32) :
    k0_pay14 (F := Ideal) car goal pl = slab 4 5 slices_S256x64_o0_4_S256x1 slices_S256x64_o0_5_S256x1
      shapeCasts_S256x1_S256x1 broadcasts_S256x1_S256x128 pl (k0_pay10 (F := Ideal) car goal) k0_pay11 := rfl
theorem slab3_eq (car goal pl : FVec Ideal S256x64 .f32) :
    k0_pay15 (F := Ideal) car goal pl = slab 6 7 slices_S256x64_o0_6_S256x1 slices_S256x64_o0_7_S256x1
      shapeCasts_S256x1_S256x1 broadcasts_S256x1_S256x128 pl (k0_pay10 (F := Ideal) car goal) k0_pay11 := rfl
theorem slab4_eq (pl : FVec Ideal S256x64 .f32) (cv : FVec Ideal S256x128 .f32) (lo : IVec S256x128 1) :
    k0_pay16 (F := Ideal) pl cv lo = slab 8 9 slices_S256x64_o0_8_S256x1 slices_S256x64_o0_9_S256x1
      shapeCasts_S256x1_S256x1 broadcasts_S256x1_S256x128 pl cv lo := rfl
theorem slab5_eq (pl : FVec Ideal S256x64 .f32) (cv : FVec Ideal S256x128 .f32) (lo : IVec S256x128 1) :
    k0_pay17 (F := Ideal) pl cv lo = slab 10 11 slices_S256x64_o0_10_S256x1 slices_S256x64_o0_11_S256x1
      shapeCasts_S256x1_S256x1 broadcasts_S256x1_S256x128 pl cv lo := rfl
theorem slab6_eq (pl : FVec Ideal S256x64 .f32) (cv : FVec Ideal S256x128 .f32) (lo : IVec S256x128 1) :
    k0_pay18 (F := Ideal) pl cv lo = slab 12 13 slices_S256x64_o0_12_S256x1 slices_S256x64_o0_13_S256x1
      shapeCasts_S256x1_S256x1 broadcasts_S256x1_S256x128 pl cv lo := rfl
theorem slab7_eq (pl : FVec Ideal S256x64 .f32) (cv : FVec Ideal S256x128 .f32) (lo : IVec S256x128 1) :
    k0_pay19 (F := Ideal) pl cv lo = slab 14 15 slices_S256x64_o0_14_S256x1 slices_S256x64_o0_15_S256x1
      shapeCasts_S256x1_S256x1 broadcasts_S256x1_S256x128 pl cv lo := rfl
theorem slab8_eq (pl : FVec Ideal S256x64 .f32) (cv : FVec Ideal S256x128 .f32) (lo : IVec S256x128 1) :
    k0_pay20 (F := Ideal) pl cv lo = slab 16 17 slices_S256x64_o0_16_S256x1 slices_S256x64_o0_17_S256x1
      shapeCasts_S256x1_S256x1 broadcasts_S256x1_S256x128 pl cv lo := rfl
theorem slab9_eq (pl : FVec Ideal S256x64 .f32) (cv : FVec Ideal S256x128 .f32) (lo : IVec S256x128 1) :
    k0_pay21 (F := Ideal) pl cv lo = slab 18 19 slices_S256x64_o0_18_S256x1 slices_S256x64_o0_19_S256x1
      shapeCasts_S256x1_S256x1 broadcasts_S256x1_S256x128 pl cv lo := rfl
theorem slab10_eq (pl : FVec Ideal S256x64 .f32) (cv : FVec Ideal S256x128 .f32) (lo : IVec S256x128 1) :
    k0_pay22 (F := Ideal) pl cv lo = slab 20 21 slices_S256x64_o0_20_S256x1 slices_S256x64_o0_21_S256x1
      shapeCasts_S256x1_S256x1 broadcasts_S256x1_S256x128 pl cv lo := rfl
theorem slab11_eq (pl : FVec Ideal S256x64 .f32) (cv : FVec Ideal S256x128 .f32) (lo : IVec S256x128 1) :
    k0_pay23 (F := Ideal) pl cv lo = slab 22 23 slices_S256x64_o0_22_S256x1 slices_S256x64_o0_23_S256x1
      shapeCasts_S256x1_S256x1 broadcasts_S256x1_S256x128 pl cv lo := rfl
theorem slab12_eq (pl : FVec Ideal S256x64 .f32) (cv : FVec Ideal S256x128 .f32) (lo : IVec S256x128 1) :
    k0_pay24 (F := Ideal) pl cv lo = slab 24 25 slices_S256x64_o0_24_S256x1 slices_S256x64_o0_25_S256x1
      shapeCasts_S256x1_S256x1 broadcasts_S256x1_S256x128 pl cv lo := rfl
theorem slab13_eq (pl : FVec Ideal S256x64 .f32) (cv : FVec Ideal S256x128 .f32) (lo : IVec S256x128 1) :
    k0_pay25 (F := Ideal) pl cv lo = slab 26 27 slices_S256x64_o0_26_S256x1 slices_S256x64_o0_27_S256x1
      shapeCasts_S256x1_S256x1 broadcasts_S256x1_S256x128 pl cv lo := rfl
theorem slab14_eq (pl : FVec Ideal S256x64 .f32) (cv : FVec Ideal S256x128 .f32) (lo : IVec S256x128 1) :
    k0_pay26 (F := Ideal) pl cv lo = slab 28 29 slices_S256x64_o0_28_S256x1 slices_S256x64_o0_29_S256x1
      shapeCasts_S256x1_S256x1 broadcasts_S256x1_S256x128 pl cv lo := rfl
theorem slab15_eq (pl : FVec Ideal S256x64 .f32) (cv : FVec Ideal S256x128 .f32) (lo : IVec S256x128 1) :
    k0_pay27 (F := Ideal) pl cv lo = slab 30 31 slices_S256x64_o0_30_S256x1 slices_S256x64_o0_31_S256x1
      shapeCasts_S256x1_S256x1 broadcasts_S256x1_S256x128 pl cv lo := rfl
theorem slab16_eq (pl : FVec Ideal S256x64 .f32) (cv : FVec Ideal S256x128 .f32) (lo : IVec S256x128 1) :
    k0_pay28 (F := Ideal) pl cv lo = slab 32 33 slices_S256x64_o0_32_S256x1 slices_S256x64_o0_33_S256x1
      shapeCasts_S256x1_S256x1 broadcasts_S256x1_S256x128 pl cv lo := rfl
theorem slab17_eq (pl : FVec Ideal S256x64 .f32) (cv : FVec Ideal S256x128 .f32) (lo : IVec S256x128 1) :
    k0_pay29 (F := Ideal) pl cv lo = slab 34 35 slices_S256x64_o0_34_S256x1 slices_S256x64_o0_35_S256x1
      shapeCasts_S256x1_S256x1 broadcasts_S256x1_S256x128 pl cv lo := rfl
theorem slab18_eq (pl : FVec Ideal S256x64 .f32) (cv : FVec Ideal S256x128 .f32) (lo : IVec S256x128 1) :
    k0_pay30 (F := Ideal) pl cv lo = slab 36 37 slices_S256x64_o0_36_S256x1 slices_S256x64_o0_37_S256x1
      shapeCasts_S256x1_S256x1 broadcasts_S256x1_S256x128 pl cv lo := rfl
theorem slab19_eq (pl : FVec Ideal S256x64 .f32) (cv : FVec Ideal S256x128 .f32) (lo : IVec S256x128 1) :
    k0_pay31 (F := Ideal) pl cv lo = slab 38 39 slices_S256x64_o0_38_S256x1 slices_S256x64_o0_39_S256x1
      shapeCasts_S256x1_S256x1 broadcasts_S256x1_S256x128 pl cv lo := rfl
theorem slab20_eq (pl : FVec Ideal S256x64 .f32) (cv : FVec Ideal S256x128 .f32) (lo : IVec S256x128 1) :
    k0_pay32 (F := Ideal) pl cv lo = slab 40 41 slices_S256x64_o0_40_S256x1 slices_S256x64_o0_41_S256x1
      shapeCasts_S256x1_S256x1 broadcasts_S256x1_S256x128 pl cv lo := rfl
theorem slab21_eq (pl : FVec Ideal S256x64 .f32) (cv : FVec Ideal S256x128 .f32) (lo : IVec S256x128 1) :
    k0_pay33 (F := Ideal) pl cv lo = slab 42 43 slices_S256x64_o0_42_S256x1 slices_S256x64_o0_43_S256x1
      shapeCasts_S256x1_S256x1 broadcasts_S256x1_S256x128 pl cv lo := rfl
theorem slab22_eq (pl : FVec Ideal S256x64 .f32) (cv : FVec Ideal S256x128 .f32) (lo : IVec S256x128 1) :
    k0_pay34 (F := Ideal) pl cv lo = slab 44 45 slices_S256x64_o0_44_S256x1 slices_S256x64_o0_45_S256x1
      shapeCasts_S256x1_S256x1 broadcasts_S256x1_S256x128 pl cv lo := rfl
theorem slab23_eq (pl : FVec Ideal S256x64 .f32) (cv : FVec Ideal S256x128 .f32) (lo : IVec S256x128 1) :
    k0_pay35 (F := Ideal) pl cv lo = slab 46 47 slices_S256x64_o0_46_S256x1 slices_S256x64_o0_47_S256x1
      shapeCasts_S256x1_S256x1 broadcasts_S256x1_S256x128 pl cv lo := rfl
theorem slab24_eq (pl : FVec Ideal S256x64 .f32) (cv : FVec Ideal S256x128 .f32) (lo : IVec S256x128 1) :
    k0_pay36 (F := Ideal) pl cv lo = slab 48 49 slices_S256x64_o0_48_S256x1 slices_S256x64_o0_49_S256x1
      shapeCasts_S256x1_S256x1 broadcasts_S256x1_S256x128 pl cv lo := rfl
theorem slab25_eq (pl : FVec Ideal S256x64 .f32) (cv : FVec Ideal S256x128 .f32) (lo : IVec S256x128 1) :
    k0_pay37 (F := Ideal) pl cv lo = slab 50 51 slices_S256x64_o0_50_S256x1 slices_S256x64_o0_51_S256x1
      shapeCasts_S256x1_S256x1 broadcasts_S256x1_S256x128 pl cv lo := rfl
theorem slab26_eq (pl : FVec Ideal S256x64 .f32) (cv : FVec Ideal S256x128 .f32) (lo : IVec S256x128 1) :
    k0_pay38 (F := Ideal) pl cv lo = slab 52 53 slices_S256x64_o0_52_S256x1 slices_S256x64_o0_53_S256x1
      shapeCasts_S256x1_S256x1 broadcasts_S256x1_S256x128 pl cv lo := rfl
theorem slab27_eq (pl : FVec Ideal S256x64 .f32) (cv : FVec Ideal S256x128 .f32) (lo : IVec S256x128 1) :
    k0_pay39 (F := Ideal) pl cv lo = slab 54 55 slices_S256x64_o0_54_S256x1 slices_S256x64_o0_55_S256x1
      shapeCasts_S256x1_S256x1 broadcasts_S256x1_S256x128 pl cv lo := rfl
theorem slab28_eq (pl : FVec Ideal S256x64 .f32) (cv : FVec Ideal S256x128 .f32) (lo : IVec S256x128 1) :
    k0_pay40 (F := Ideal) pl cv lo = slab 56 57 slices_S256x64_o0_56_S256x1 slices_S256x64_o0_57_S256x1
      shapeCasts_S256x1_S256x1 broadcasts_S256x1_S256x128 pl cv lo := rfl
theorem slab29_eq (pl : FVec Ideal S256x64 .f32) (cv : FVec Ideal S256x128 .f32) (lo : IVec S256x128 1) :
    k0_pay1 (F := Ideal) pl cv lo = slab 58 59 slices_S256x64_o0_58_S256x1 slices_S256x64_o0_59_S256x1
      shapeCasts_S256x1_S256x1 broadcasts_S256x1_S256x128 pl cv lo := rfl
theorem slab30_eq (pl : FVec Ideal S256x64 .f32) (cv : FVec Ideal S256x128 .f32) (lo : IVec S256x128 1) :
    k0_pay2 (F := Ideal) pl cv lo = slab 60 61 slices_S256x64_o0_60_S256x1 slices_S256x64_o0_61_S256x1
      shapeCasts_S256x1_S256x1 broadcasts_S256x1_S256x128 pl cv lo := rfl
theorem slab31_eq (pl : FVec Ideal S256x64 .f32) (cv : FVec Ideal S256x128 .f32) (lo : IVec S256x128 1) :
    k0_pay3 (F := Ideal) pl cv lo = slab 62 63 slices_S256x64_o0_62_S256x1 slices_S256x64_o0_63_S256x1
      shapeCasts_S256x1_S256x1 broadcasts_S256x1_S256x128 pl cv lo := rfl

/-- The bias block the body stores is that one function: each of its 32 stores is the function's restriction to the
    store's columns, and the stores cover the block. -/
theorem biasBlock_eq (x : Vec Ideal S256x320 .f32) : out0_2 (F := Ideal) x = biasFn x := by
  funext y
  unfold out0_2
  simp only [View.ld_unit_zero (S := S256x320) off_zero]
  refine View.canon_apply_of_pieces (Val := Elt Ideal) (S := S256x4096) (e := .f32) (biasFn x) _ ?_ y (cover0_2 (F := Ideal) _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro y'; rw [slab31_eq]
    exact slab_is_bias x 31 3968 62 63 (by decide) rfl rfl rfl slices_S256x64_o0_62_S256x1
      slices_S256x64_o0_63_S256x1 shapeCasts_S256x1_S256x1 broadcasts_S256x1_S256x128 inb_S256x4096_S256x128_0_3968 y'
  · intro y'; rw [slab30_eq]
    exact slab_is_bias x 30 3840 60 61 (by decide) rfl rfl rfl slices_S256x64_o0_60_S256x1
      slices_S256x64_o0_61_S256x1 shapeCasts_S256x1_S256x1 broadcasts_S256x1_S256x128 inb_S256x4096_S256x128_0_3840 y'
  · intro y'; rw [slab29_eq]
    exact slab_is_bias x 29 3712 58 59 (by decide) rfl rfl rfl slices_S256x64_o0_58_S256x1
      slices_S256x64_o0_59_S256x1 shapeCasts_S256x1_S256x1 broadcasts_S256x1_S256x128 inb_S256x4096_S256x128_0_3712 y'
  · intro y'; rw [slab28_eq]
    exact slab_is_bias x 28 3584 56 57 (by decide) rfl rfl rfl slices_S256x64_o0_56_S256x1
      slices_S256x64_o0_57_S256x1 shapeCasts_S256x1_S256x1 broadcasts_S256x1_S256x128 inb_S256x4096_S256x128_0_3584 y'
  · intro y'; rw [slab27_eq]
    exact slab_is_bias x 27 3456 54 55 (by decide) rfl rfl rfl slices_S256x64_o0_54_S256x1
      slices_S256x64_o0_55_S256x1 shapeCasts_S256x1_S256x1 broadcasts_S256x1_S256x128 inb_S256x4096_S256x128_0_3456 y'
  · intro y'; rw [slab26_eq]
    exact slab_is_bias x 26 3328 52 53 (by decide) rfl rfl rfl slices_S256x64_o0_52_S256x1
      slices_S256x64_o0_53_S256x1 shapeCasts_S256x1_S256x1 broadcasts_S256x1_S256x128 inb_S256x4096_S256x128_0_3328 y'
  · intro y'; rw [slab25_eq]
    exact slab_is_bias x 25 3200 50 51 (by decide) rfl rfl rfl slices_S256x64_o0_50_S256x1
      slices_S256x64_o0_51_S256x1 shapeCasts_S256x1_S256x1 broadcasts_S256x1_S256x128 inb_S256x4096_S256x128_0_3200 y'
  · intro y'; rw [slab24_eq]
    exact slab_is_bias x 24 3072 48 49 (by decide) rfl rfl rfl slices_S256x64_o0_48_S256x1
      slices_S256x64_o0_49_S256x1 shapeCasts_S256x1_S256x1 broadcasts_S256x1_S256x128 inb_S256x4096_S256x128_0_3072 y'
  · intro y'; rw [slab23_eq]
    exact slab_is_bias x 23 2944 46 47 (by decide) rfl rfl rfl slices_S256x64_o0_46_S256x1
      slices_S256x64_o0_47_S256x1 shapeCasts_S256x1_S256x1 broadcasts_S256x1_S256x128 inb_S256x4096_S256x128_0_2944 y'
  · intro y'; rw [slab22_eq]
    exact slab_is_bias x 22 2816 44 45 (by decide) rfl rfl rfl slices_S256x64_o0_44_S256x1
      slices_S256x64_o0_45_S256x1 shapeCasts_S256x1_S256x1 broadcasts_S256x1_S256x128 inb_S256x4096_S256x128_0_2816 y'
  · intro y'; rw [slab21_eq]
    exact slab_is_bias x 21 2688 42 43 (by decide) rfl rfl rfl slices_S256x64_o0_42_S256x1
      slices_S256x64_o0_43_S256x1 shapeCasts_S256x1_S256x1 broadcasts_S256x1_S256x128 inb_S256x4096_S256x128_0_2688 y'
  · intro y'; rw [slab20_eq]
    exact slab_is_bias x 20 2560 40 41 (by decide) rfl rfl rfl slices_S256x64_o0_40_S256x1
      slices_S256x64_o0_41_S256x1 shapeCasts_S256x1_S256x1 broadcasts_S256x1_S256x128 inb_S256x4096_S256x128_0_2560 y'
  · intro y'; rw [slab19_eq]
    exact slab_is_bias x 19 2432 38 39 (by decide) rfl rfl rfl slices_S256x64_o0_38_S256x1
      slices_S256x64_o0_39_S256x1 shapeCasts_S256x1_S256x1 broadcasts_S256x1_S256x128 inb_S256x4096_S256x128_0_2432 y'
  · intro y'; rw [slab18_eq]
    exact slab_is_bias x 18 2304 36 37 (by decide) rfl rfl rfl slices_S256x64_o0_36_S256x1
      slices_S256x64_o0_37_S256x1 shapeCasts_S256x1_S256x1 broadcasts_S256x1_S256x128 inb_S256x4096_S256x128_0_2304 y'
  · intro y'; rw [slab17_eq]
    exact slab_is_bias x 17 2176 34 35 (by decide) rfl rfl rfl slices_S256x64_o0_34_S256x1
      slices_S256x64_o0_35_S256x1 shapeCasts_S256x1_S256x1 broadcasts_S256x1_S256x128 inb_S256x4096_S256x128_0_2176 y'
  · intro y'; rw [slab16_eq]
    exact slab_is_bias x 16 2048 32 33 (by decide) rfl rfl rfl slices_S256x64_o0_32_S256x1
      slices_S256x64_o0_33_S256x1 shapeCasts_S256x1_S256x1 broadcasts_S256x1_S256x128 inb_S256x4096_S256x128_0_2048 y'
  · intro y'; rw [slab15_eq]
    exact slab_is_bias x 15 1920 30 31 (by decide) rfl rfl rfl slices_S256x64_o0_30_S256x1
      slices_S256x64_o0_31_S256x1 shapeCasts_S256x1_S256x1 broadcasts_S256x1_S256x128 inb_S256x4096_S256x128_0_1920 y'
  · intro y'; rw [slab14_eq]
    exact slab_is_bias x 14 1792 28 29 (by decide) rfl rfl rfl slices_S256x64_o0_28_S256x1
      slices_S256x64_o0_29_S256x1 shapeCasts_S256x1_S256x1 broadcasts_S256x1_S256x128 inb_S256x4096_S256x128_0_1792 y'
  · intro y'; rw [slab13_eq]
    exact slab_is_bias x 13 1664 26 27 (by decide) rfl rfl rfl slices_S256x64_o0_26_S256x1
      slices_S256x64_o0_27_S256x1 shapeCasts_S256x1_S256x1 broadcasts_S256x1_S256x128 inb_S256x4096_S256x128_0_1664 y'
  · intro y'; rw [slab12_eq]
    exact slab_is_bias x 12 1536 24 25 (by decide) rfl rfl rfl slices_S256x64_o0_24_S256x1
      slices_S256x64_o0_25_S256x1 shapeCasts_S256x1_S256x1 broadcasts_S256x1_S256x128 inb_S256x4096_S256x128_0_1536 y'
  · intro y'; rw [slab11_eq]
    exact slab_is_bias x 11 1408 22 23 (by decide) rfl rfl rfl slices_S256x64_o0_22_S256x1
      slices_S256x64_o0_23_S256x1 shapeCasts_S256x1_S256x1 broadcasts_S256x1_S256x128 inb_S256x4096_S256x128_0_1408 y'
  · intro y'; rw [slab10_eq]
    exact slab_is_bias x 10 1280 20 21 (by decide) rfl rfl rfl slices_S256x64_o0_20_S256x1
      slices_S256x64_o0_21_S256x1 shapeCasts_S256x1_S256x1 broadcasts_S256x1_S256x128 inb_S256x4096_S256x128_0_1280 y'
  · intro y'; rw [slab9_eq]
    exact slab_is_bias x 9 1152 18 19 (by decide) rfl rfl rfl slices_S256x64_o0_18_S256x1
      slices_S256x64_o0_19_S256x1 shapeCasts_S256x1_S256x1 broadcasts_S256x1_S256x128 inb_S256x4096_S256x128_0_1152 y'
  · intro y'; rw [slab8_eq]
    exact slab_is_bias x 8 1024 16 17 (by decide) rfl rfl rfl slices_S256x64_o0_16_S256x1
      slices_S256x64_o0_17_S256x1 shapeCasts_S256x1_S256x1 broadcasts_S256x1_S256x128 inb_S256x4096_S256x128_0_1024 y'
  · intro y'; rw [slab7_eq]
    exact slab_is_bias x 7 896 14 15 (by decide) rfl rfl rfl slices_S256x64_o0_14_S256x1
      slices_S256x64_o0_15_S256x1 shapeCasts_S256x1_S256x1 broadcasts_S256x1_S256x128 inb_S256x4096_S256x128_0_896 y'
  · intro y'; rw [slab6_eq]
    exact slab_is_bias x 6 768 12 13 (by decide) rfl rfl rfl slices_S256x64_o0_12_S256x1
      slices_S256x64_o0_13_S256x1 shapeCasts_S256x1_S256x1 broadcasts_S256x1_S256x128 inb_S256x4096_S256x128_0_768 y'
  · intro y'; rw [slab5_eq]
    exact slab_is_bias x 5 640 10 11 (by decide) rfl rfl rfl slices_S256x64_o0_10_S256x1
      slices_S256x64_o0_11_S256x1 shapeCasts_S256x1_S256x1 broadcasts_S256x1_S256x128 inb_S256x4096_S256x128_0_640 y'
  · intro y'; rw [slab4_eq]
    exact slab_is_bias x 4 512 8 9 (by decide) rfl rfl rfl slices_S256x64_o0_8_S256x1
      slices_S256x64_o0_9_S256x1 shapeCasts_S256x1_S256x1 broadcasts_S256x1_S256x128 inb_S256x4096_S256x128_0_512 y'
  · intro y'; rw [slab3_eq]
    exact slab_is_bias x 3 384 6 7 (by decide) rfl rfl rfl slices_S256x64_o0_6_S256x1
      slices_S256x64_o0_7_S256x1 shapeCasts_S256x1_S256x1 broadcasts_S256x1_S256x128 inb_S256x4096_S256x128_0_384 y'
  · intro y'; rw [slab2_eq]
    exact slab_is_bias x 2 256 4 5 (by decide) rfl rfl rfl slices_S256x64_o0_4_S256x1
      slices_S256x64_o0_5_S256x1 shapeCasts_S256x1_S256x1 broadcasts_S256x1_S256x128 inb_S256x4096_S256x128_0_256 y'
  · intro y'; rw [slab1_eq]
    exact slab_is_bias x 1 128 2 3 (by decide) rfl rfl rfl slices_S256x64_o0_2_S256x1
      slices_S256x64_o0_3_S256x1 shapeCasts_S256x1_S256x1 broadcasts_S256x1_S256x128 inb_S256x4096_S256x128_0_128 y'
  · intro y'; rw [slab0_eq]
    exact slab_is_bias x 0 0 0 1 (by decide) rfl rfl rfl slices_S256x64_o0_0_S256x1
      slices_S256x64_o0_1_S256x1 shapeCasts_S256x1_S256x1 broadcasts_S256x1_S256x128 inb_S256x4096_S256x128_0_0 y'

/-- The bias block the body stores, entry (r, q), q = 64 p + c: biasOf of the tags of objects p and c of row r. -/
theorem biasBlock_apply (x : Vec Ideal S256x320 .f32) (r : Fin 256) (q : Fin 4096) :
    out0_2 (F := Ideal) x (ix2 r q)
      = biasOf (x (ix2 r (tagCol (rowObj q)))) (x (ix2 r (tagCol (colObj q)))) := by
  rw [biasBlock_eq]
  rfl

end Cert.KernelIdeal.Tile

end
-- ==== Proof.KernelRun.lean ====
/-
  The idealized kernel's whole run, read as values: both result arrays as the specification's functions
  of obj_slots.

  The program flattens obj_slots [4096, 64, 5] to flat [4096, 320], flat(b, k) = obj_slots(b, k / 5, k % 5), so
  flat(b, 5n + 4) = obj_slots(b, n, 4), the tag of object n of row b. The grid has 16 points; point t reads rows
  256 t … 256 t + 255 of flat as one block and writes the same rows of the alpha array [4096, 64] and of the
  bias array [4096, 4096]. Local row r of block t is row 256 t + r of the array, and every block spans all
  columns, so each block written is the restriction of ONE function of flat:
    alpha(b, n) = alphaOf(flat(b, 5n + 4)),
    bias(b, q)  = biasOf(flat(b, 5 (q / 64) + 4), flat(b, 5 (q % 64) + 4)).
  Row b lies in the block of point b / 256, so the 16 blocks cover each array and the arrays end holding these
  functions. The bias array is finally regrouped to [4096, 64, 64]: entry (b, p, c) is entry (b, 64 p + c), and
  (64 p + c) / 64 = p, (64 p + c) % 64 = c.
-/
import proofs.«101031_g5325759447573_cont_9to1_m_770_5_alg».proof.Proof.KernelBias
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Cert.KernelIdeal.Tile Idealize.ShloMosaic Idealize.ShloMosaic.TcCoe
  Idealize.ShloMosaic.ValueIdx Idealize.SL.Sem Cert.Guidance

variable (m : (ℓ : Loc nD τ sig) → Buf (Elt Ideal) ℓ) (ρ : Dev nD → PrngReg)

/-- The flattened input: row b of obj_slots as 320 numbers, slot s of object n at column 5n + s. -/
def flat (a : S4096x64x5.Idx → EReal) : S4096x320.Idx → EReal :=
  shapeCast S4096x320 a shapeCasts_S4096x64x5_S4096x320

/-- Column 5n + 4 of flattened row b is the tag of object n: (b · 64 + n) · 5 + 4 = b · 320 + (5n + 4). -/
theorem flat_tag (a : S4096x64x5.Idx → EReal) (b : Fin 4096) (n : Fin 64) :
    flat a (ix2 b (tagCol n)) = tag a b n := by
  unfold flat
  exact shapeCast_apply a shapeCasts_S4096x64x5_S4096x320 (ix2 b (tagCol n)) (ix3 b n (4 : Fin 5))
    (by rw [Shape.rowMajor_val_three, Shape.rowMajor_val_two]
        have := b.isLt; have := n.isLt
        show (b.val * 64 + n.val) * 5 + 4 = b.val * 320 + (5 * n.val + 4)
        omega)

/-- The array the region reads is the flattened input. -/
theorem V_flat (c : Dev nD) : V m c main_v0 = flat (m ((c : Thread nD τ).loc main_arg0)) := by
  show StableHlo.after hostOps0 (fun b => m (c, b)) (Proc.devRef .tc main_v0) = _
  after_results
  rfl

/-- alpha over the flattened input, on [4096, 64]. -/
def alphaFlat (f : S4096x320.Idx → EReal) : S4096x64.Idx → EReal :=
  fun i => alphaOf (f (ix2 (i 0) (tagCol (i 1))))

/-- The pairwise bias over the flattened input, on [4096, 4096]: column q = 64 p + c pairs objects p and c. -/
def biasFlat (f : S4096x320.Idx → EReal) : S4096x4096.Idx → EReal :=
  fun i => biasOf (f (ix2 (i 0) (tagCol (rowObj (i 1))))) (f (ix2 (i 0) (tagCol (colObj (i 1)))))

/-- Over the flattened input it is the specification's alpha. -/
theorem alphaFlat_flat (a : S4096x64x5.Idx → EReal) : alphaFlat (flat a) = Cert.Guidance.alpha a :=
  funext fun i => congrArg alphaOf (flat_tag a (i 0) (i 1))

/-- The three windows' block index at point t: row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The alpha block at any index of the block. -/
theorem alphaBlock_at (x : Vec Ideal S256x320 .f32) (j : S256x64.Idx) :
    out0_1 (F := Ideal) x j = alphaOf (x (ix2 (j 0) (tagCol (j 1)))) :=
  (congrArg (out0_1 (F := Ideal) x) (eq_ix2 j)).trans (alphaBlock_apply x (j 0) (j 1))

/-- What point t writes back to the alpha array is block t of alpha over the flattened input: local row r of
    block t is row 256 t + r of both arrays, and the tag's column 5n + 4 is the same in the block and the array. -/
theorem flushed1_eq (c : Dev nD) (t : Fin cfg0.N) :
    (dats m 0 c).flushed 1 t = ((cfg0.win 1).blk t).view.read (Elt Ideal) (alphaFlat (V m c main_v0)) := by
  show (cfg0.win 1).cut (grid0.coords t) ((dats m 0 c).after 1 t) = _
  rw [after0_1]
  obtain ⟨e00, e01, e10, e11, -, -⟩ := idx_facts t
  funext j
  refine (alphaBlock_at (iblk m c 0 t) j).trans ?_
  show alphaOf (V m c main_v0 (((cfg0.win 0).blk t).view.emb (ix2 (j 0) (tagCol (j 1)))))
    = alphaOf (V m c main_v0 (ix2 ((((cfg0.win 1).blk t).view.emb j) 0) (tagCol ((((cfg0.win 1).blk t).view.emb j) 1))))
  refine congrArg (fun k => alphaOf (V m c main_v0 k)) ?_
  funext a; apply Fin.ext
  have hj0 : (j 0).val < 256 := (j 0).isLt
  have hj1 : (j 1).val < 64 := (j 1).isLt
  match a with
  | ⟨0, _⟩ =>
    show win0_0.index t (0 : Fin 2) * 256 + 1 * (j 0).val = win0_1.index t (0 : Fin 2) * 256 + 1 * (j 0).val
    omega
  | ⟨1, _⟩ =>
    show win0_0.index t (1 : Fin 2) * 320 + 1 * (5 * (j 1).val + 4) = 5 * (win0_1.index t (1 : Fin 2) * 64 + 1 * (j 1).val) + 4
    omega

/-- An index of the alpha array is in point t's block iff each coordinate is in the block's range on its axis. -/
theorem mem_blk1 (t : Fin cfg0.N) (i : S4096x64.Idx) :
    i ∈ ((cfg0.win 1).blk t).view.set ↔ ∀ a : Fin 2, win0_1.index t a * S256x64.size a ≤ (i a).val
      ∧ (i a).val < win0_1.index t a * S256x64.size a + S256x64.size a := by
  show i ∈ ((View.whole main_v1_0).slice (win0_1.rect t)).set ↔ _
  rw [View.set_slice_whole, Rect.mem_set_unit]
  exact Iff.rfl

/-- Row b of the alpha array lies in the block of point b / 256. -/
theorem cover1 (i : S4096x64.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, e10, e11, -, -⟩ := idx_facts t
  refine ⟨t, flush0_1 t, ?_⟩
  rw [mem_blk1]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 64 ≤ (i 1).val ∧ (i 1).val < win0_1.index t (1 : Fin 2) * 64 + 64
    omega

/-- The alpha array after the region. -/
theorem final1 (c : Dev nD) : (dats m 0 c).arrAt 1 cfg0.N = alphaFlat (V m c main_v0) :=
  (dats m 0 c).arrAt_eq_of_cover 1 (alphaFlat (V m c main_v0)) (fun t _ => flushed1_eq m c t) cover1

/-- The bias block at any index of the block. -/
theorem biasBlock_at (x : Vec Ideal S256x320 .f32) (j : S256x4096.Idx) :
    out0_2 (F := Ideal) x j
      = biasOf (x (ix2 (j 0) (tagCol (rowObj (j 1))))) (x (ix2 (j 0) (tagCol (colObj (j 1))))) :=
  (congrArg (out0_2 (F := Ideal) x) (eq_ix2 j)).trans (biasBlock_apply x (j 0) (j 1))

/-- A block of the flattened input read where a block of the bias array says: local row r of block t is row
    256 t + r of both arrays; the bias block spans all 4096 columns, so its column is the array's. -/
theorem blockIn2 (c : Dev nD) (t : Fin cfg0.N) (j : S256x4096.Idx) (g : Fin 4096 → Fin 64) :
    iblk m c 0 t (ix2 (j 0) (tagCol (g (j 1))))
      = V m c main_v0 (ix2 ((((cfg0.win 2).blk t).view.emb j) 0) (tagCol (g ((((cfg0.win 2).blk t).view.emb j) 1)))) := by
  obtain ⟨e00, e01, -, -, e20, e21⟩ := idx_facts t
  have hj0 : (j 0).val < 256 := (j 0).isLt
  have hj1 : (j 1).val < 4096 := (j 1).isLt
  have hcol : (((cfg0.win 2).blk t).view.emb j) 1 = j 1 := by
    apply Fin.ext
    show win0_2.index t (1 : Fin 2) * 4096 + 1 * (j 1).val = (j 1).val
    omega
  rw [hcol]
  show V m c main_v0 (((cfg0.win 0).blk t).view.emb (ix2 (j 0) (tagCol (g (j 1))))) = _
  refine congrArg (V m c main_v0) ?_
  funext a; apply Fin.ext
  match a with
  | ⟨0, _⟩ =>
    show win0_0.index t (0 : Fin 2) * 256 + 1 * (j 0).val = win0_2.index t (0 : Fin 2) * 256 + 1 * (j 0).val
    omega
  | ⟨1, _⟩ =>
    show win0_0.index t (1 : Fin 2) * 320 + 1 * (tagCol (g (j 1))).val = (tagCol (g (j 1))).val
    omega

/-- What point t writes back to the bias array is block t of the bias over the flattened input. -/
theorem flushed2_eq (c : Dev nD) (t : Fin cfg0.N) :
    (dats m 0 c).flushed 2 t = ((cfg0.win 2).blk t).view.read (Elt Ideal) (biasFlat (V m c main_v0)) := by
  show (cfg0.win 2).cut (grid0.coords t) ((dats m 0 c).after 2 t) = _
  rw [after0_2]
  funext j
  refine (biasBlock_at (iblk m c 0 t) j).trans ?_
  show _ = biasOf (V m c main_v0 (ix2 ((((cfg0.win 2).blk t).view.emb j) 0) (tagCol (rowObj ((((cfg0.win 2).blk t).view.emb j) 1)))))
      (V m c main_v0 (ix2 ((((cfg0.win 2).blk t).view.emb j) 0) (tagCol (colObj ((((cfg0.win 2).blk t).view.emb j) 1)))))
  rw [blockIn2 m c t j rowObj, blockIn2 m c t j colObj]

/-- An index of the bias array is in point t's block iff each coordinate is in the block's range on its axis. -/
theorem mem_blk2 (t : Fin cfg0.N) (i : S4096x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1_1).slice (win0_2.rect t)).set ↔ _
  rw [View.set_slice_whole, Rect.mem_set_unit]
  exact Iff.rfl

/-- Row b of the bias array lies in the block of point b / 256. -/
theorem cover2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, e20, e21⟩ := idx_facts t
  refine ⟨t, flush0_2 t, ?_⟩
  rw [mem_blk2]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The bias array after the region. -/
theorem final2 (c : Dev nD) : (dats m 0 c).arrAt 2 cfg0.N = biasFlat (V m c main_v0) :=
  (dats m 0 c).arrAt_eq_of_cover 2 (biasFlat (V m c main_v0)) (fun t _ => flushed2_eq m c t) cover2

/-- The alpha array after the region is the specification's alpha of obj_slots. -/
theorem alphaArr (c : Dev nD) :
    (dats m 0 c).arrAt 1 cfg0.N = Cert.Guidance.alpha (m ((c : Thread nD τ).loc main_arg0)) :=
  (final1 m c).trans ((congrArg alphaFlat (V_flat m c)).trans (alphaFlat_flat _))

/-- The bias array regrouped to [4096, 64, 64]: entry (b, p, c) is entry (b, 64 p + c) of the array, since
    (b · 64 + p) · 64 + c = b · 4096 + (64 p + c); and (64 p + c) / 64 = p, (64 p + c) % 64 = c, so it pairs the
    tags of objects p and c of row b. -/
theorem regroup (a : S4096x64x5.Idx → EReal) :
    shapeCast S4096x64x64 (biasFlat (flat a)) shapeCasts_S4096x4096_S4096x64x64 = Cert.Guidance.bias a := by
  funext i
  have h0 : (i 0).val < 4096 := (i 0).isLt
  have h1 : (i 1).val < 64 := (i 1).isLt
  have h2 : (i 2).val < 64 := (i 2).isLt
  have hq : 64 * (i 1).val + (i 2).val < 4096 := by omega
  refine (shapeCast_apply _ shapeCasts_S4096x4096_S4096x64x64 i
    (ix2 (i 0) (⟨64 * (i 1).val + (i 2).val, hq⟩ : Fin 4096)) ?_).trans ?_
  · rw [Shape.rowMajor_val_two, Shape.rowMajor_val_three]
    show (i 0).val * 4096 + (64 * (i 1).val + (i 2).val) = ((i 0).val * 64 + (i 1).val) * 64 + (i 2).val
    omega
  · have hr : rowObj ⟨64 * (i 1).val + (i 2).val, hq⟩ = i 1 :=
      Fin.ext (by show (64 * (i 1).val + (i 2).val) / 64 = (i 1).val; omega)
    have hc : colObj ⟨64 * (i 1).val + (i 2).val, hq⟩ = i 2 :=
      Fin.ext (by show (64 * (i 1).val + (i 2).val) % 64 = (i 2).val; omega)
    exact congrArg₂ biasOf
      ((congrArg (fun n : Fin 64 => flat a (ix2 (i 0) (tagCol n))) hr).trans (flat_tag a (i 0) (i 1)))
      ((congrArg (fun n : Fin 64 => flat a (ix2 (i 0) (tagCol n))) hc).trans (flat_tag a (i 0) (i 2)))

/-- The second result: the reshape after the region applied to the bias array. -/
theorem tail (c : Dev nD) :
    Pipeline.afterTail₀ cfgs (dats m) 0 (V0 m) [hostOps1] c main_v2
      = Cert.Guidance.bias (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
        (Proc.devRef .tc main_v1_1)
      = biasFlat (flat (m ((c : Thread nD τ).loc main_arg0))) :=
    ((Pipeline.withArrays_arr spec0 launch0.win.arr_inj c _ _ 2).trans (final2 m c)).trans
      (congrArg biasFlat (V_flat m c))
  rw [hw]
  exact regroup (m ((c : Thread nD τ).loc main_arg0))

/-- The whole run: both results are the specification's functions of obj_slots, which is left as launched. -/
theorem run : θ_run defs (onTc (τ := τ) (main (F := Ideal))) ⟨m, fun _ => 0, ρ⟩ fun r => ∀ c : Dev nD,
      r.2.mem ((c.tc : Thread nD τ).loc main_v1_0) = Cert.Guidance.alpha (m ((c.tc : Thread nD τ).loc main_arg0))
      ∧ r.2.mem ((c.tc : Thread nD τ).loc main_v2) = Cert.Guidance.bias (m ((c.tc : Thread nD τ).loc main_arg0))
      ∧ r.2.mem ((c.tc : Thread nD τ).loc main_arg0) = m ((c.tc : Thread nD τ).loc main_arg0) :=
  (θ_run defs _ _).mono (fun r h c => ⟨((h c).1 1).trans (alphaArr m c),
      ((h c).2 main_v2 (Pipeline.mem_restRefs_of main_v2 (by decide) (by decide))).trans (tail m c),
      ((h c).2 main_arg0 (Pipeline.mem_restRefs_of main_arg0 (by decide) (by decide))).trans
        (W_main_arg0 m (dats m) c)⟩)
    (run_main m ρ)

end Cert.KernelIdeal.Whole

end
-- ==== Proof.RefIsSpec.lean ====
/-
  The reference program's two results, read at the ideal instance, are the specification's functions.

  The reference first takes the tag column t(b, n) = obj_slots(b, n, 4): a slice of the last axis at
  position 4, then a reshape that drops the unit axis. Each of the three indicators is a comparison of
  t with a constant word (of 2, of 3, of 1) selecting between the words of 1 and of 0. The first
  result is 2 · ((0.6 · car + 0.3 · goal) + 0.1 · player) − 1 at (b, n). The second, at (b, p, c), is
  (0 − (0.8 · player(b, p)) · car(b, c)) + (0.8 · player(b, p)) · goal(b, c), the row factor and the
  column factor being brought to the common shape by broadcasts; the specification's law between
  this form and player · (0.8 · (goal − car)) finishes it. No literal is evaluated.
-/
import proofs.«101031_g5325759447573_cont_9to1_m_770_5_alg».proof.Proof.Gen.ReferenceIdeal.Read
import proofs.«101031_g5325759447573_cont_9to1_m_770_5_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The slice [:, :, 4:5] followed by the reshape [4096, 64, 1] → [4096, 64] reads the tag column:
    element (b, n) is obj_slots(b, n, 4). The reshape's row-major position b · 64 + n splits back
    into (b, n, 0) because n < 64. -/
theorem tag_read (x0 : (⟨S4096x64x5, .f32⟩ : BufTy).Contents (Elt Ideal)) (i : S4096x64.Idx) :
    val_main_v1 (F := Ideal) x0 i = Cert.Guidance.tag x0 (i 0) (i 1) := by
  rw [val_main_v1_apply, val_main_v0_apply]
  show x0 _ = x0 _
  congr 1
  funext a
  apply Fin.ext
  have h0 : (i 0).val < 4096 := (i 0).isLt
  have h1 : (i 1).val < 64 := (i 1).isLt
  match a with
  | ⟨0, _⟩ => show ((i 0).val * 64 + (i 1).val) / 64 = (i 0).val; omega
  | ⟨1, _⟩ => show ((i 0).val * 64 + (i 1).val) / 1 % 64 = (i 1).val; omega
  | ⟨2, _⟩ => rfl

/-- car(b, n): the tag compared with the word of 2, selecting between the words of 1 and of 0. -/
theorem car_read (x0 : (⟨S4096x64x5, .f32⟩ : BufTy).Contents (Elt Ideal)) (i : S4096x64.Idx) :
    val_main_v4 (F := Ideal) x0 i = Cert.Guidance.ind (Cert.Guidance.tag x0 (i 0) (i 1)) 0x40000000#32 := by
  rw [val_main_v4_apply, val_main_v3_apply, tag_read, val_main_v2_apply, val_main_cst_apply,
    val_main_call0_v0_apply, val_main_cst_0_apply, val_main_call0_v1_apply, val_main_cst_1_apply]
  rfl

/-- goal(b, n): the tag compared with the word of 3. -/
theorem goal_read (x0 : (⟨S4096x64x5, .f32⟩ : BufTy).Contents (Elt Ideal)) (i : S4096x64.Idx) :
    val_main_v7 (F := Ideal) x0 i = Cert.Guidance.ind (Cert.Guidance.tag x0 (i 0) (i 1)) 0x40400000#32 := by
  rw [val_main_v7_apply, val_main_v6_apply, tag_read, val_main_v5_apply, val_main_cst_2_apply,
    val_main_call1_v0_apply, val_main_cst_3_apply, val_main_call1_v1_apply, val_main_cst_4_apply]
  rfl

/-- player(b, n): the tag compared with the word of 1. -/
theorem player_read (x0 : (⟨S4096x64x5, .f32⟩ : BufTy).Contents (Elt Ideal)) (i : S4096x64.Idx) :
    val_main_v10 (F := Ideal) x0 i = Cert.Guidance.ind (Cert.Guidance.tag x0 (i 0) (i 1)) 0x3F800000#32 := by
  rw [val_main_v10_apply, val_main_v9_apply, tag_read, val_main_v8_apply, val_main_cst_5_apply,
    val_main_call2_v0_apply, val_main_cst_6_apply, val_main_call2_v1_apply, val_main_cst_7_apply]
  rfl

/-- The first result: 2 · ((0.6 · car + 0.3 · goal) + 0.1 · player) − 1, each constant a broadcast scalar. -/
theorem alpha_eq (x0 : (⟨S4096x64x5, .f32⟩ : BufTy).Contents (Elt Ideal)) :
    val_main_v22 (F := Ideal) x0 = Cert.Guidance.alpha x0 := by
  funext i
  rw [val_main_v22_apply, val_main_v20_apply, val_main_v19_apply, val_main_cst_11_apply,
    val_main_v18_apply, val_main_v15_apply,
    val_main_v12_apply, val_main_v11_apply, val_main_cst_8_apply, car_read,
    val_main_v14_apply, val_main_v13_apply, val_main_cst_9_apply, goal_read,
    val_main_v17_apply, val_main_v16_apply, val_main_cst_10_apply, player_read,
    val_main_v21_apply, val_main_cst_12_apply]
  rfl

/-- The second result at (b, p, c): the row factor 0.8 · player(b, p) is formed on [4096, 64, 1] and
    repeated along the last axis, the column factors car(b, c) and goal(b, c) are placed on
    [4096, 1, 64] and repeated along the middle axis; the products are subtracted from and added to
    zero. That is the specification's reference form, equal to its kernel form by the ring law. -/
theorem bias_eq (x0 : (⟨S4096x64x5, .f32⟩ : BufTy).Contents (Elt Ideal)) :
    val_main_v41 (F := Ideal) x0 = Cert.Guidance.bias x0 := by
  funext i
  show _ = Cert.Guidance.biasOf (Cert.Guidance.tag x0 (i 0) (i 1)) (Cert.Guidance.tag x0 (i 0) (i 2))
  rw [← Cert.Guidance.biasRef_eq]
  rw [val_main_v41_apply, val_main_v32_apply, val_main_v23_apply, val_main_cst_13_apply,
    val_main_v31_apply, val_main_v30_apply,
    val_main_v28_apply, val_main_v26_apply, val_main_v25_apply, val_main_cst_14_apply,
    val_main_v24_apply, player_read,
    val_main_v29_apply, val_main_v27_apply, car_read,
    val_main_v40_apply, val_main_v39_apply,
    val_main_v37_apply, val_main_v35_apply, val_main_v34_apply, val_main_cst_15_apply,
    val_main_v33_apply, player_read,
    val_main_v38_apply, val_main_v36_apply, goal_read]
  rfl

end Cert.ReferenceIdeal.RefValue

end
-- ==== Proof.lean ====
/-
  The certificate of the guidance-bias kernel against its reference.

  Both programs read obj_slots : [4096, 64, 5], take each object's tag t(b, n) = obj_slots(b, n, 4), form the three
  indicators car = [t = 2], goal = [t = 3], player = [t = 1], and return
    alpha(b, n)   = 2 · ((0.6 · car + 0.3 · goal) + 0.1 · player) − 1,
    bias(b, p, c) = 0.8 · player(b, p) · (goal(b, c) − car(b, c)).
  The kernel reads the tag through a product with a 0/1 selection matrix over the row-major flattening
  [4096, 320] and writes the bias flat, [4096, 4096], in slabs of 128 lanes, reshaped back afterwards; the
  reference slices the tag and forms the bias as (0 − (0.8 · player) · car) + (0.8 · player) · goal. On the extended
  reals the selection product is the tag itself (0 absorbs, 1 is neutral), alpha is the same expression on both
  sides, and the two bias forms agree because every factor is a real number (Spec.lean). The precondition
  (finite inputs) is not needed by any of these laws.

  The three frames: the two kernels' are the generated frame proofs; the reference has no kernel, its frame is its
  generated run with the results dropped. The idealization rewrote nothing, so preserves holds trivially.
  The value claim pairs the kernel's run read as values (KernelRun.lean, over KernelTags.lean and KernelBias.lean)
  with the reference's generated run read stage by stage (RefIsSpec.lean), both at the specification's functions.
-/
import proofs.«101031_g5325759447573_cont_9to1_m_770_5_alg».proof.Defs
import proofs.«101031_g5325759447573_cont_9to1_m_770_5_alg».proof.Proof.Gen.Kernel
import proofs.«101031_g5325759447573_cont_9to1_m_770_5_alg».proof.Proof.Gen.Kernel.Skeleton
import proofs.«101031_g5325759447573_cont_9to1_m_770_5_alg».proof.Proof.Gen.Kernel.Launch
import proofs.«101031_g5325759447573_cont_9to1_m_770_5_alg».proof.Proof.Gen.Kernel.Points
import proofs.«101031_g5325759447573_cont_9to1_m_770_5_alg».proof.Proof.Gen.Kernel.Frame
import proofs.«101031_g5325759447573_cont_9to1_m_770_5_alg».proof.Proof.Gen.KernelIdeal
import proofs.«101031_g5325759447573_cont_9to1_m_770_5_alg».proof.Proof.Gen.KernelIdeal.Skeleton
import proofs.«101031_g5325759447573_cont_9to1_m_770_5_alg».proof.Proof.Gen.KernelIdeal.Launch
import proofs.«101031_g5325759447573_cont_9to1_m_770_5_alg».proof.Proof.Gen.KernelIdeal.Points
import proofs.«101031_g5325759447573_cont_9to1_m_770_5_alg».proof.Proof.Gen.KernelIdeal.Frame
import proofs.«101031_g5325759447573_cont_9to1_m_770_5_alg».proof.Proof.Gen.ReferenceIdeal
import proofs.«101031_g5325759447573_cont_9to1_m_770_5_alg».proof.Proof.Gen.ReferenceIdeal.Run
import proofs.«101031_g5325759447573_cont_9to1_m_770_5_alg».proof.Proof.Gen.ReferenceIdeal.Read
import proofs.«101031_g5325759447573_cont_9to1_m_770_5_alg».proof.Proof.Gen.Pre_finite_inputs
import proofs.«101031_g5325759447573_cont_9to1_m_770_5_alg».proof.Proof.KernelRun
import proofs.«101031_g5325759447573_cont_9to1_m_770_5_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves obj_slots as it found it. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From inputs that agree, both programs end with alpha and bias of obj_slots. -/
theorem algebraic : Cert.algebraic_KernelIdeal_ReferenceIdeal := by
  intro m ρ m' ρ' _ hagree
  refine ⟨fun c => Cert.Guidance.alpha (m ((c.tc : Thread Cert.KernelIdeal.nD Cert.KernelIdeal.τ).loc Cert.KernelIdeal.main_arg0)),
    fun c => Cert.Guidance.bias (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v22_eq, Cert.ReferenceIdeal.RefValue.alpha_eq, hagree c]
  · rw [(h c).2.1, Cert.ReferenceIdeal.Read.val_main_v41_eq, Cert.ReferenceIdeal.RefValue.bias_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
